-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S10000x1 : Shape := ⟨2, ![10000, 1]⟩
abbrev S1x64 : Shape := ⟨2, ![1, 64]⟩

abbrev nBuf : Space → Nat
  | .hbm => 82
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S1x64, .f32⟩
  | .hbm, ⟨81, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S1700000_S1700000x1 : S1700000.ShapeCasts S1700000x1
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1700000x64.size a
  hwx1_0 : ∀ i : grid1.Coords, EltTy.bits .f32 = 32 ∨ (Rect.block (s := S1700000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1700000x64.size a
  hwx1_2 : ∀ i : grid1.Coords, EltTy.bits .f32 = 32 ∨ (Rect.block (s := S1700000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1700000x64.size a
  hwx4_0 : ∀ i : grid4.Coords, EltTy.bits .f32 = 32 ∨ (Rect.block (s := S1700000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1700000x64.size a
  hwx4_2 : ∀ i : grid4.Coords, EltTy.bits .f32 = 32 ∨ (Rect.block (s := S1700000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x64, .f32⟩
  | .hbm, ⟨115, _⟩ => ⟨S1700000x1, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result buffer named.

  The program is thirteen segments: stretches of host operations and six kernel calls. Its run leaves every unscoped
  buffer at the contents the last segment boundary names (the fold of the segments from the launch memory); reading
  that fact at the result buffer as well as at the six argument buffers gives the run's result as the last boundary's
  contents of that buffer, the arguments unchanged.
-/
import proofs.«128336_j1279900254338_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last segment
    boundary's contents of it and the argument buffers as launched. -/
theorem run_named : θ_run defs (onTc (τ := τ) (main (F := F))) ⟨m, fun _ => 0, ρ⟩ (fun r => ∀ c : Dev nD,
      r.2.mem ((c.tc : Thread nD τ).loc main_v59) = W13 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v59 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Run

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibColumnsInDim.lean ====
/-
  Column layouts made by `broadcast_in_dim`, read at an entry.

  A vector `[a]` laid out as a one-column matrix `[a, 1]`, a one-column matrix repeated across `b` columns, and a
  `1 × 1` matrix repeated down `a` rows: each reads, at an entry, the operand at the row (or at its one entry). General
  in the extents and in the element type.
-/
import Idealize.ShloMosaic.Lib.Pipeline.Value
import Idealize.ShloMosaic.Lib.ValueIdx

namespace LibColumnsInDim

open Idealize.ShloMosaic Idealize.ShloMosaic.ValueIdx

variable {α : Type} {a b : ℕ}

/-- A vector as a one-column matrix: entry `(i, u)` is the vector's entry `i`. -/
theorem vec_col_apply (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply (![0] : Fin 1 → Fin 2) h x (ix2 i u) (ix1 i) fun ax => ?_
  match ax with
  | ⟨0, _⟩ =>
    show i.val = if a = 1 then 0 else i.val
    split
    · have := i.isLt; omega
    · rfl

/-- A one-column matrix repeated across `b` columns: entry `(i, k)` is the column's entry `i`. -/
theorem col_across_apply (x : (⟨2, ![a, 1]⟩ : Shape).Idx → α)
    (h : (⟨2, ![a, 1]⟩ : Shape).BroadcastsInDim ⟨2, ![a, b]⟩ (![0, 1] : Fin 2 → Fin 2)) (i : Fin a) (k : Fin b) :
    broadcastInDim ⟨2, ![a, b]⟩ ![0, 1] h x (ix2 i k) = x (ix2 i (0 : Fin 1)) := by
  refine broadcastInDim_apply (![0, 1] : Fin 2 → Fin 2) h x (ix2 i k) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else k.val
    rw [if_pos rfl]

/-- A `1 × 1` matrix repeated down `a` rows: every entry is its one entry. -/
theorem one_down_apply (x : (⟨2, ![1, 1]⟩ : Shape).Idx → α)
    (h : (⟨2, ![1, 1]⟩ : Shape).BroadcastsInDim ⟨2, ![a, 1]⟩ (![0, 1] : Fin 2 → Fin 2)) (i : Fin a) (u : Fin 1) :
    broadcastInDim ⟨2, ![a, 1]⟩ ![0, 1] h x (ix2 i u) = x (ix2 (0 : Fin 1) (0 : Fin 1)) := by
  refine broadcastInDim_apply (![0, 1] : Fin 2 → Fin 2) h x (ix2 i u) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else u.val
    rw [if_pos rfl]

end LibColumnsInDim
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.Stages.lean ====
/-
  The dense stages of a two-layer graph convolution, each as ONE function of whole arrays over the extended reals.

  A layer multiplies the node features by a weight matrix, gathers the product's rows along the edges, scales every
  gathered row by that edge's normalisation weight, adds the scaled rows into their target nodes, and adds a bias row
  (the first layer then clamps at zero). The gather and the scatter-add are the same host operations on both sides of
  the comparison, so they are never opened here. What differs is only how the three dense stages are laid out:
    * `scaleRows g n`: row `e` of `g` times the one entry of row `e` of the column `n`;
    * `addRow a b`: the row `b` added to every row of `a`; `addRowClamp` the same followed by a maximum with zero;
    * the matrix product (the shared plain-product file).
  For each stage: the form a row-block of it takes (a block of rows, the column or row operand broadcast inside the
  block), read at an entry; and the form the host gives it over whole arrays (two `broadcast_in_dim`s of a vector),
  equal to the stage as functions. No law of arithmetic is used beyond reading each layout at an entry, so nothing
  here needs the entries to be finite.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«128336_j1279900254338_2_alg».proof.Proof.LibMatProd
import proofs.«128336_j1279900254338_2_alg».proof.Proof.LibColumnsInDim
import proofs.«128336_j1279900254338_2_alg».proof.Proof.LibKeepdims
import proofs.«128336_j1279900254338_2_alg».proof.Proof.LibBroadcastTo

noncomputable section

namespace Cert.Gcn

open Idealize.ShloMosaic Idealize.ShloMosaic.ValueIdx

variable {N E C B : Nat}

/-- A matrix of extended reals. -/
abbrev Mat (a b : Nat) : Type := (⟨2, ![a, b]⟩ : Shape).Idx → EReal

/-- Row `e` of `g` scaled by the entry of row `e` of the one-column matrix `n`. -/
def scaleRows (g : Mat E C) (n : Mat E 1) : Mat E C := fun i => g i * n (ix2 (i 0) (0 : Fin 1))

/-- The row `b` added to every row of `a`. -/
def addRow (a : Mat N C) (b : Mat 1 C) : Mat N C := fun i => a i + b (ix2 (0 : Fin 1) (i 1))

/-- The row `b` added to every row of `a`, then the maximum with the zero word's value. -/
def addRowClamp (a : Mat N C) (b : Mat 1 C) : Mat N C :=
  fun i => max (a i + b (ix2 (0 : Fin 1) (i 1))) (Ideal.ofBits .f32 0x00000000#32)

/-! ## A block of rows of each stage, as a kernel body computes it -/

/-- A block of rows times its column of weights broadcast across the columns, at `(p, q)`. -/
theorem scale_block (x0 : FVec Ideal ⟨2, ![B, C]⟩ .f32) (x1 : FVec Ideal ⟨2, ![B, 1]⟩ .f32)
    (h0 : (⟨2, ![B, C]⟩ : Shape).ShapeCasts ⟨2, ![B, C]⟩) (h1 : (⟨2, ![B, 1]⟩ : Shape).ShapeCasts ⟨2, ![B, 1]⟩)
    (hb : (⟨2, ![B, 1]⟩ : Shape).Broadcasts ⟨2, ![B, C]⟩) (p : Fin B) (q : Fin C) :
    mulf (shapeCast ⟨2, ![B, C]⟩ x0 h0) (broadcastTo ⟨2, ![B, C]⟩ (shapeCast ⟨2, ![B, 1]⟩ x1 h1) hb) (ix2 p q)
      = x0 (ix2 p q) * x1 (ix2 p (0 : Fin 1)) := by
  rw [mulf_apply, shapeCast_self, shapeCast_self, Cert.Keepdims.broadcastTo_a1_ab_apply]

/-- A block of rows plus the bias row broadcast down the rows, at `(p, q)`. -/
theorem bias_block (x0 : FVec Ideal ⟨2, ![B, C]⟩ .f32) (x1 : FVec Ideal ⟨2, ![1, C]⟩ .f32)
    (h0 : (⟨2, ![B, C]⟩ : Shape).ShapeCasts ⟨2, ![B, C]⟩) (h1 : (⟨2, ![1, C]⟩ : Shape).ShapeCasts ⟨2, ![1, C]⟩)
    (hb : (⟨2, ![1, C]⟩ : Shape).Broadcasts ⟨2, ![B, C]⟩) (p : Fin B) (q : Fin C) :
    addf (shapeCast ⟨2, ![B, C]⟩ x0 h0) (broadcastTo ⟨2, ![B, C]⟩ (shapeCast ⟨2, ![1, C]⟩ x1 h1) hb) (ix2 p q)
      = x0 (ix2 p q) + x1 (ix2 (0 : Fin 1) q) := by
  rw [addf_apply, shapeCast_self, shapeCast_self, Cert.BroadcastTo.row_apply]

/-! ## The host's layouts of the same operands, read at an entry -/

/-- A vector `[c]` laid out as the one-row matrix `[1, c]` by `broadcast_in_dim`: entry `(u, k)` is the vector's `k`. -/
theorem vec_row_apply {α : Type} (x : (⟨1, ![C]⟩ : Shape).Idx → α)
    (h : (⟨1, ![C]⟩ : Shape).BroadcastsInDim ⟨2, ![1, C]⟩ (![1] : Fin 1 → Fin 2)) (u : Fin 1) (k : Fin C) :
    broadcastInDim ⟨2, ![1, C]⟩ ![1] h x (ix2 u k) = x (ix1 k) := by
  refine broadcastInDim_apply (![1] : Fin 1 → Fin 2) h x (ix2 u k) (ix1 k) fun ax => ?_
  match ax with
  | ⟨0, _⟩ =>
    show k.val = if C = 1 then 0 else k.val
    split
    · have := k.isLt; omega
    · rfl

/-- A one-row matrix repeated down `n` rows by `broadcast_in_dim`: entry `(p, k)` is the row's `k`. -/
theorem row_down_apply {α : Type} (x : (⟨2, ![1, C]⟩ : Shape).Idx → α)
    (h : (⟨2, ![1, C]⟩ : Shape).BroadcastsInDim ⟨2, ![N, C]⟩ (![0, 1] : Fin 2 → Fin 2)) (p : Fin N) (k : Fin C) :
    broadcastInDim ⟨2, ![N, C]⟩ ![0, 1] h x (ix2 p k) = x (ix2 (0 : Fin 1) k) := by
  refine broadcastInDim_apply (![0, 1] : Fin 2 → Fin 2) h x (ix2 p k) (ix2 (0 : Fin 1) k) fun ax => ?_
  match ax with
  | ⟨0, _⟩ =>
    show (0 : ℕ) = if (1 : ℕ) = 1 then 0 else p.val
    rw [if_pos rfl]
  | ⟨1, _⟩ =>
    show k.val = if C = 1 then 0 else k.val
    split
    · have := k.isLt; omega
    · rfl

/-- A vector `[c]` cast to the one-row matrix `[1, c]`: entry `(u, k)` is the vector's `k`. -/
theorem shapeCast_c_1c_apply {α : Type} (x : (⟨1, ![C]⟩ : Shape).Idx → α) (h : (⟨1, ![C]⟩ : Shape).ShapeCasts ⟨2, ![1, C]⟩)
    (u : Fin 1) (k : Fin C) : shapeCast ⟨2, ![1, C]⟩ x h (ix2 u k) = x (ix1 k) :=
  shapeCast_apply x h _ _ (by
    have hu : u.val = 0 := by omega
    rw [Shape.rowMajor_val_two, Shape.rowMajor_val_one]
    show k.val = u.val * C + k.val
    rw [hu, Nat.zero_mul, Nat.zero_add])

/-- A scalar constant spread over a matrix by `broadcast_in_dim`: every entry is the constant's value. -/
theorem splat_apply (w : BitVec 32) (h : (⟨0, ![]⟩ : Shape).BroadcastsInDim ⟨2, ![N, C]⟩ (![] : Fin 0 → Fin 2))
    (i : (⟨2, ![N, C]⟩ : Shape).Idx) :
    broadcastInDim ⟨2, ![N, C]⟩ ![] h (constant (F := Ideal) ⟨0, ![]⟩ .f32 w) i = Ideal.ofBits .f32 w :=
  (broadcastInDim_apply (![] : Fin 0 → Fin 2) h _ i ix0 fun ax => ax.elim0).trans rfl

/-! ## Each stage as the host spells it -/

/-- Scaling the rows by a vector of weights: the host multiplies by the vector laid out as a column and repeated
    across the columns; the kernel's operand is the same vector cast to a column. -/
theorem scaleRows_eq_host (g : FVec Ideal ⟨2, ![E, C]⟩ .f32) (n : FVec Ideal ⟨1, ![E]⟩ .f32)
    (hc : (⟨1, ![E]⟩ : Shape).ShapeCasts ⟨2, ![E, 1]⟩)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2)) :
    scaleRows g (shapeCast ⟨2, ![E, 1]⟩ n hc)
      = mulf g (broadcastInDim ⟨2, ![E, C]⟩ ![0, 1] h2 (broadcastInDim ⟨2, ![E, 1]⟩ ![0] h1 n)) := by
  funext i
  obtain ⟨p, q, rfl⟩ : ∃ (p : Fin E) (q : Fin C), i = ix2 p q := ⟨i 0, i 1, eq_ix2 i⟩
  rw [mulf_apply, LibColumnsInDim.col_across_apply, LibColumnsInDim.vec_col_apply]
  show g (ix2 p q) * shapeCast ⟨2, ![E, 1]⟩ n hc (ix2 p (0 : Fin 1)) = _
  rw [Cert.Keepdims.shapeCast_a_a1_apply]

/-- Adding a bias vector to every row: the host adds the vector laid out as a row and repeated down the rows; the
    kernel's operand is the same vector cast to a row. -/
theorem addRow_eq_host (a : FVec Ideal ⟨2, ![N, C]⟩ .f32) (b : FVec Ideal ⟨1, ![C]⟩ .f32)
    (hc : (⟨1, ![C]⟩ : Shape).ShapeCasts ⟨2, ![1, C]⟩)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2)) :
    addRow a (shapeCast ⟨2, ![1, C]⟩ b hc)
      = addf a (broadcastInDim ⟨2, ![N, C]⟩ ![0, 1] h2 (broadcastInDim ⟨2, ![1, C]⟩ ![1] h1 b)) := by
  funext i
  obtain ⟨p, q, rfl⟩ : ∃ (p : Fin N) (q : Fin C), i = ix2 p q := ⟨i 0, i 1, eq_ix2 i⟩
  rw [addf_apply, row_down_apply, vec_row_apply]
  show a (ix2 p q) + shapeCast ⟨2, ![1, C]⟩ b hc (ix2 (0 : Fin 1) q) = _
  rw [shapeCast_c_1c_apply]

/-- The same followed by the clamp at zero: the host takes the maximum with a zero constant spread over the matrix. -/
theorem addRowClamp_eq_host (a : FVec Ideal ⟨2, ![N, C]⟩ .f32) (b : FVec Ideal ⟨1, ![C]⟩ .f32)
    (hc : (⟨1, ![C]⟩ : Shape).ShapeCasts ⟨2, ![1, C]⟩)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2)) :
    addRowClamp a (shapeCast ⟨2, ![1, C]⟩ b hc)
      = maximumf (addf a (broadcastInDim ⟨2, ![N, C]⟩ ![0, 1] h2 (broadcastInDim ⟨2, ![1, C]⟩ ![1] h1 b)))
          (broadcastInDim ⟨2, ![N, C]⟩ ![] h0 (constant (F := Ideal) ⟨0, ![]⟩ .f32 0x00000000#32)) := by
  funext i
  rw [maximumf_apply, splat_apply, ← addRow_eq_host a b hc h1 h2]
  rfl

end Cert.Gcn

end
-- ==== Proof.Terms.lean ====
/-
  The graph-side quantities of the two-layer graph convolution and its layers, named once.

  From the edge list: the sources and the targets with one self-loop per node appended; a node's degree (the number
  of targets equal to it, self-loop included) and its inverse square root where the degree is positive, zero
  elsewhere; an edge's weight, the product of the two values at its ends. A layer gathers the projected rows at the
  sources, scales each by its edge's weight and adds the scaled rows into their targets; the whole network is two such
  layers, a bias row after each and a clamp at zero between them. The gather and the scatter-add stay the host's own
  operations: only their operands are named here.
-/
import proofs.«128336_j1279900254338_2_alg».proof.Proof.Gen.KernelIdeal
import proofs.«128336_j1279900254338_2_alg».proof.Proof.Stages

noncomputable section

open Idealize.ShloMosaic Idealize.ShloMosaic.TcCoe Idealize.SL.Sem Idealize.ShloMosaic.ValueIdx

namespace Cert.KernelIdeal.Val

open Cert.KernelIdeal Cert.KernelIdeal.Gen Cert.Gcn Cert.MatProd

/-- The edge list's contents: row 0 the sources, row 1 the targets. -/
abbrev Edges : Type := IVec S2x1600000 32
/-- One 32-bit integer per edge, self-loops included. -/
abbrev PerEdgeI : Type := IVec S1700000 32
/-- One extended real per edge. -/
abbrev PerEdge : Type := FVec Ideal S1700000 .f32
/-- One extended real per node. -/
abbrev PerNode : Type := FVec Ideal S100000 .f32

/-- The sources: row 0 of the edge list, then every node once (the self-loops). -/
def srcV (e : Edges) : PerEdgeI :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets: row 1 of the edge list, then every node once. -/
def dstV (e : Edges) : PerEdgeI :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node numbers as start indices of a gather: a negative number wrapped by the node count, laid out as a column. -/
def wrapIdx (s : PerEdgeI) : IVec S1700000x1 32 :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- A node's degree: ones added at the targets. -/
def degV (e : Edges) : PerNode :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 (dstV e)) (broadcastInDim S1700000 ![] bcast_S_S1700000 (constant (F := Ideal) S_ .f32 0x3F800000#32))

/-- The inverse square root of the degree where it is positive, zero elsewhere. -/
def dinvV (e : Edges) : PerNode :=
  select (cmpf (F := Ideal) .ogt (degV e) (broadcastInDim S100000 ![] bcast_S_S100000 (constant (F := Ideal) S_ .f32 0x00000000#32))) (Host.rsqrt (F := Ideal) (degV e)) (broadcastInDim S100000 ![] bcast_S_S100000 (id (constant (F := Ideal) S_ .f32 0x00000000#32)))

/-- An edge's weight: the product of the values at its source and at its target. -/
def normV (e : Edges) : PerEdge :=
  mulf (F := Ideal) (Host.gather gather_S100000_S1700000x1_S1700000_n_0_n_n_0_1_1 (dinvV e) (wrapIdx (srcV e))) (Host.gather gather_S100000_S1700000x1_S1700000_n_0_n_n_0_1_1 (dinvV e) (wrapIdx (dstV e)))

/-- The weights as a one-column matrix. -/
def normCol (e : Edges) : Mat 1700000 1 := shapeCast S1700000x1 (normV e) shapeCasts_S1700000_S1700000x1

/-- The projected rows gathered at the edges' sources. -/
def gatherRows (e : Edges) (xt : Mat 100000 64) : Mat 1700000 64 :=
  Host.gather gather_S100000x64_S1700000x1_S1700000x64_1_0_n_n_0_1_164 xt (wrapIdx (srcV e))

/-- Per-edge rows added into their target nodes, from zero. -/
def aggregate (e : Edges) (msg : Mat 1700000 64) : Mat 100000 64 :=
  Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 (dstV e)) msg

/-- A bias vector as a one-row matrix. -/
def biasRow (b : FVec Ideal S64 .f32) : Mat 1 64 := shapeCast S1x64 b shapeCasts_S64_S1x64

/-- One layer before its bias: gather the projected rows, scale by the edge weights, add into the targets. -/
def layer (e : Edges) (xt : Mat 100000 64) : Mat 100000 64 :=
  aggregate e (scaleRows (gatherRows e xt) (normCol e))

/-- The first layer's output: projection, aggregation, bias, clamp at zero. -/
def hidden (x : Mat 100000 128) (e : Edges) (w1 : Mat 128 64) (b1 : FVec Ideal S64 .f32) : Mat 100000 64 :=
  addRowClamp (layer e (prod x w1)) (biasRow b1)

/-- The network's output: the second layer on the first layer's output. -/
def out (x : Mat 100000 128) (e : Edges) (w1 : Mat 128 64) (b1 : FVec Ideal S64 .f32)
    (w2 : Mat 64 64) (b2 : FVec Ideal S64 .f32) : Mat 100000 64 :=
  addRow (layer e (prod (hidden x e w1 b1) w2)) (biasRow b2)

end Cert.KernelIdeal.Val

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.Project0.lean ====
/-
  The first layer's projection call as one function of whole arrays.

  The call walks the [100000, 128] feature array in 10 blocks of 10000 rows; at every block it multiplies the block
  by the whole [128, 64] weight matrix into a zero accumulator (the operands' change of float format is the identity
  on the extended reals). Entry `(p, q)` of what block `t` writes back is `∑ k, x (10000 t + p, k) · w (k, q)`: entry
  `(10000 t + p, q)` of the plain product of the two whole arrays. The blocks tile the rows, so the output array ends
  holding the product of the arrays the call was entered with — whatever those are (`V` is a variable).
-/
import proofs.«128336_j1279900254338_2_alg».proof.Proof.Gen.KernelIdeal.Frame
import proofs.«128336_j1279900254338_2_alg».proof.Proof.Stages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Project0

open Cert.KernelIdeal Cert.KernelIdeal.Gen Cert.Gcn Cert.MatProd

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)` of a block: row `p` of the block against column `q` of the weights. -/
theorem pay_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact matmul_plain_zero_apply none _ _ p q

/-- The same against whole arrays: when row `y 0` of the block is row `i 0` of the feature array and the weight block
    is the weight array, the product is the whole arrays' product at `i`. -/
theorem pay_block (x0 : Vec Ideal S10000x128 .f32) (x1 : Vec Ideal S128x64 .f32) (y : S10000x64.Idx)
    (G0 : Mat 100000 128) (G1 : Mat 128 64) (i : S100000x64.Idx)
    (h0 : ∀ k : Fin 128, x0 (ix2 (y 0) k) = G0 (ix2 (i 0) k)) (h1 : ∀ k : Fin 128, x1 (ix2 k (y 1)) = G1 (ix2 k (i 1))) :
    k0_pay1 x0 x1 y = prod G0 G1 i := by
  obtain ⟨p, q, rfl⟩ : ∃ (p : Fin 10000) (q : Fin 64), y = ix2 p q := ⟨y 0, y 1, eq_ix2 y⟩
  rw [pay_apply]
  exact Finset.sum_congr rfl fun k _ => congrArg₂ (· * ·) (h0 k) (h1 k)

/-- At point `t` the row windows are at row block `t`, the weight window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the call was entered with. -/
theorem flushed_eq (c : Dev nD) (t : Fin cfg0.N) :
    (dat0 V c).flushed 2 t = ((cfg0.win 2).blk t).view.read (Elt Ideal)
      (prod (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx_facts t
  funext j
  show k0_pay1 (iblk0 V c 0 t) (iblk0 V c 1 t) j
    = prod (V c main_arg0) (V c main_arg2) (((cfg0.win 2).blk t).view.emb j)
  refine pay_block _ _ j _ _ _ (fun k => ?_) (fun k => ?_)
  · show V c main_arg0 (((cfg0.win 0).blk t).view.emb (ix2 (j 0) k))
      = V c main_arg0 (ix2 ((((cfg0.win 2).blk t).view.emb j) 0) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1)))
      = V c main_arg2 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the output is written by point `r / 10000`: the blocks tile the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the call: the plain product of the two arrays the call was entered with. -/
theorem final (c : Dev nD) : (dat0 V c).arrAt 2 cfg0.N = prod (V c main_arg0) (V c main_arg2) :=
  (dat0 V c).arrAt_eq_of_cover 2 _ (fun t _ => flushed_eq V c t) cover

end Cert.KernelIdeal.Project0

end
-- ==== Proof.Scale1.lean ====
/-
  The first layer's row-scaling call as one function of whole arrays.

  The call walks the [1700000, 64] array of gathered rows in 170 blocks of 10000 rows; at block `t` it multiplies the
  block by the matching 10000 entries of the weight column, broadcast across the 64 columns. Entry `(p, q)` of what
  block `t` writes back is therefore entry `(10000 t + p, q)` of `scaleRows` of the two whole arrays, the blocks
  tile the rows, and the output array ends holding `scaleRows` of the arrays the call was entered with — whatever
  those arrays are (`V` is a variable).
-/
import proofs.«128336_j1279900254338_2_alg».proof.Proof.Gen.KernelIdeal.Frame
import proofs.«128336_j1279900254338_2_alg».proof.Proof.Stages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale1

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)` of a block: the row's entry times the row's weight. -/
theorem pay_apply (x0 : Vec Ideal S10000x64 .f32) (x1 : Vec Ideal S10000x1 .f32) (p : Fin 10000) (q : Fin 64) :
    k1_pay1 x0 x1 (ix2 p q) = x0 (ix2 p q) * x1 (ix2 p (0 : Fin 1)) := by
  unfold k1_pay1
  exact scale_block x0 x1 _ _ _ p q

/-- The same against whole arrays: when the block's entry and the row's weight are the arrays' entries at `i`, the
    product is `scaleRows` of the arrays at `i`. -/
theorem pay_block (x0 : Vec Ideal S10000x64 .f32) (x1 : Vec Ideal S10000x1 .f32) (y : S10000x64.Idx)
    (G0 : Mat 1700000 64) (G1 : Mat 1700000 1) (i : S1700000x64.Idx)
    (h0 : x0 y = G0 i) (h1 : x1 (ix2 (y 0) (0 : Fin 1)) = G1 (ix2 (i 0) (0 : Fin 1))) :
    k1_pay1 x0 x1 y = scaleRows G0 G1 i := by
  obtain ⟨p, q, rfl⟩ : ∃ (p : Fin 10000) (q : Fin 64), y = ix2 p q := ⟨y 0, y 1, eq_ix2 y⟩
  rw [pay_apply]
  exact congrArg₂ (· * ·) h0 h1

/-- At point `t` every window is at row block `t`, column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `scaleRows` of the arrays the call was entered with. -/
theorem flushed_eq (c : Dev nD) (t : Fin cfg1.N) :
    (dat1 V c).flushed 2 t = ((cfg1.win 2).blk t).view.read (Elt Ideal)
      (scaleRows (V c main_v37) (V c main_v38)) := by
  show (cfg1.win 2).cut (grid1.coords t) ((dat1 V c).after 2 t) = _
  rw [after1_2]
  unfold out1_2
  rw [View.canon_unit_zero hz]
  simp only [View.ld_unit_zero (S := S10000x64) hz, View.ld_unit_zero (S := S10000x1) hz]
  obtain ⟨e0, e1, e2, e3, e4, e5⟩ := idx_facts t
  funext j
  show k1_pay1 (iblk1 V c 0 t) (iblk1 V c 1 t) j
    = scaleRows (V c main_v37) (V c main_v38) (((cfg1.win 2).blk t).view.emb j)
  refine pay_block _ _ j _ _ _ ?_ ?_
  · show V c main_v37 (((cfg1.win 0).blk t).view.emb j) = V c main_v37 (((cfg1.win 2).blk t).view.emb j)
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c main_v38 (((cfg1.win 1).blk t).view.emb (ix2 (j 0) (0 : Fin 1)))
      = V c main_v38 (ix2 ((((cfg1.win 2).blk t).view.emb j) 0) (0 : Fin 1))
    refine congrArg _ (funext fun a => Fin.ext ?_)
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega

/-- An index of the output array is in point `t`'s block iff each coordinate is in the block's range on its axis. -/
theorem mem_blk (t : Fin cfg1.N) (i : S1700000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v39).slice (win1_2.rect t)).set ↔ _
  rw [View.set_slice_whole, Rect.mem_set_unit]
  exact Iff.rfl

/-- Row `r` of the output is written by point `r / 10000`: the blocks tile the array. -/
theorem cover (i : S1700000x64.Idx) :
    ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 170 := N_1
  obtain ⟨t, ht⟩ : ∃ t : Fin cfg1.N, t.val = (i 0).val / 10000 := ⟨⟨(i 0).val / 10000, by rw [hN]; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the call: `scaleRows` of the two arrays the call was entered with. -/
theorem final (c : Dev nD) : (dat1 V c).arrAt 2 cfg1.N = scaleRows (V c main_v37) (V c main_v38) :=
  (dat1 V c).arrAt_eq_of_cover 2 _ (fun t _ => flushed_eq V c t) cover

end Cert.KernelIdeal.Scale1

end
-- ==== Proof.Bias2.lean ====
/-
  The first layer's bias call as one function of whole arrays.

  The call walks the [100000, 64] array of aggregated rows in 10 blocks of 10000 rows; at every block it adds the one
  bias row, broadcast down the block's rows, and takes the maximum with zero. Entry `(p, q)` of what block `t` writes
  back is entry `(10000 t + p, q)` of `addRowClamp` of the two whole arrays, the blocks tile the rows, and the output
  array ends holding `addRowClamp` of the arrays the call was entered with — whatever those are (`V` is a variable).
-/
import proofs.«128336_j1279900254338_2_alg».proof.Proof.Gen.KernelIdeal.Frame
import proofs.«128336_j1279900254338_2_alg».proof.Proof.Stages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bias2

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's value at entry `(p, q)` of a block. -/
theorem pay_apply (x0 : Vec Ideal S10000x64 .f32) (x1 : Vec Ideal S1x64 .f32) (p : Fin 10000) (q : Fin 64) :
    k2_pay1 x0 x1 (ix2 p q) = max (x0 (ix2 p q) + x1 (ix2 (0 : Fin 1) q)) (Ideal.ofBits .f32 0x00000000#32) := by
  unfold k2_pay1
  exact (maximumf_apply _ _ _).trans (congrArg₂ max (bias_block x0 x1 _ _ _ p q) rfl)

/-- The same against whole arrays: when the block's entry and the bias entry are the arrays' at `i`, the value is
    `addRowClamp` of the arrays at `i`. -/
theorem pay_block (x0 : Vec Ideal S10000x64 .f32) (x1 : Vec Ideal S1x64 .f32) (y : S10000x64.Idx)
    (G0 : Mat 100000 64) (G1 : Mat 1 64) (i : S100000x64.Idx)
    (h0 : x0 y = G0 i) (h1 : x1 (ix2 (0 : Fin 1) (y 1)) = G1 (ix2 (0 : Fin 1) (i 1))) :
    k2_pay1 x0 x1 y = addRowClamp G0 G1 i := by
  obtain ⟨p, q, rfl⟩ : ∃ (p : Fin 10000) (q : Fin 64), y = ix2 p q := ⟨y 0, y 1, eq_ix2 y⟩
  rw [pay_apply]
  exact congrArg₂ max (congrArg₂ (· + ·) h0 h1) rfl

/-- At point `t` the row windows are at row block `t`, the bias window at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `addRowClamp` of the arrays the call was entered with. -/
theorem flushed_eq (c : Dev nD) (t : Fin cfg2.N) :
    (dat2 V c).flushed 2 t = ((cfg2.win 2).blk t).view.read (Elt Ideal)
      (addRowClamp (V c main_v42) (V c main_v43)) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  obtain ⟨e0, e1, e2, e3, e4, e5⟩ := idx_facts t
  funext j
  show k2_pay1 (iblk2 V c 0 t) (iblk2 V c 1 t) j
    = addRowClamp (V c main_v42) (V c main_v43) (((cfg2.win 2).blk t).view.emb j)
  refine pay_block _ _ j _ _ _ ?_ ?_
  · show V c main_v42 (((cfg2.win 0).blk t).view.emb j) = V c main_v42 (((cfg2.win 2).blk t).view.emb j)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  · show V c main_v43 (((cfg2.win 1).blk t).view.emb (ix2 (0 : Fin 1) (j 1)))
      = V c main_v43 (ix2 (0 : Fin 1) ((((cfg2.win 2).blk t).view.emb j) 1))
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Row `r` of the output is written by point `r / 10000`: the blocks tile the array. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the call: `addRowClamp` of the two arrays the call was entered with. -/
theorem final (c : Dev nD) : (dat2 V c).arrAt 2 cfg2.N = addRowClamp (V c main_v42) (V c main_v43) :=
  (dat2 V c).arrAt_eq_of_cover 2 _ (fun t _ => flushed_eq V c t) cover

end Cert.KernelIdeal.Bias2

end
-- ==== Proof.Project3.lean ====
/-
  The second layer's projection call as one function of whole arrays.

  The call walks the [100000, 64] feature array in 10 blocks of 10000 rows; at every block it multiplies the block
  by the whole [64, 64] weight matrix into a zero accumulator (the operands' change of float format is the identity
  on the extended reals). Entry `(p, q)` of what block `t` writes back is `∑ k, x (10000 t + p, k) · w (k, q)`: entry
  `(10000 t + p, q)` of the plain product of the two whole arrays. The blocks tile the rows, so the output array ends
  holding the product of the arrays the call was entered with — whatever those are (`V` is a variable).
-/
import proofs.«128336_j1279900254338_2_alg».proof.Proof.Gen.KernelIdeal.Frame
import proofs.«128336_j1279900254338_2_alg».proof.Proof.Stages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Project3

open Cert.KernelIdeal Cert.KernelIdeal.Gen Cert.Gcn Cert.MatProd

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)` of a block: row `p` of the block against column `q` of the weights. -/
theorem pay_apply (x0 : Vec Ideal S10000x64 .f32) (x1 : Vec Ideal S64x64 .f32) (p : Fin 10000) (q : Fin 64) :
    k3_pay1 x0 x1 (ix2 p q) = ∑ k : Fin 64, x0 (ix2 p k) * x1 (ix2 k q) := by
  unfold k3_pay1
  refine (matmul_plain_zero_apply none _ _ p q).trans (Finset.sum_congr rfl fun k _ => ?_)
  rw [truncf_apply, truncf_apply, shapeCast_self]

/-- The same against whole arrays: when row `y 0` of the block is row `i 0` of the feature array and the weight block
    is the weight array, the product is the whole arrays' product at `i`. -/
theorem pay_block (x0 : Vec Ideal S10000x64 .f32) (x1 : Vec Ideal S64x64 .f32) (y : S10000x64.Idx)
    (G0 : Mat 100000 64) (G1 : Mat 64 64) (i : S100000x64.Idx)
    (h0 : ∀ k : Fin 64, x0 (ix2 (y 0) k) = G0 (ix2 (i 0) k)) (h1 : ∀ k : Fin 64, x1 (ix2 k (y 1)) = G1 (ix2 k (i 1))) :
    k3_pay1 x0 x1 y = prod G0 G1 i := by
  obtain ⟨p, q, rfl⟩ : ∃ (p : Fin 10000) (q : Fin 64), y = ix2 p q := ⟨y 0, y 1, eq_ix2 y⟩
  rw [pay_apply]
  exact Finset.sum_congr rfl fun k _ => congrArg₂ (· * ·) (h0 k) (h1 k)

/-- At point `t` the row windows are at row block `t`, the weight window at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the arrays the call was entered with. -/
theorem flushed_eq (c : Dev nD) (t : Fin cfg3.N) :
    (dat3 V c).flushed 2 t = ((cfg3.win 2).blk t).view.read (Elt Ideal)
      (prod (V c main_v44) (V c main_arg4)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x64) hz]
  obtain ⟨e0, e1, e2, e3, e4, e5⟩ := idx_facts t
  funext j
  show k3_pay1 (iblk3 V c 0 t) (iblk3 V c 1 t) j
    = prod (V c main_v44) (V c main_arg4) (((cfg3.win 2).blk t).view.emb j)
  refine pay_block _ _ j _ _ _ (fun k => ?_) (fun k => ?_)
  · show V c main_v44 (((cfg3.win 0).blk t).view.emb (ix2 (j 0) k))
      = V c main_v44 (ix2 ((((cfg3.win 2).blk t).view.emb j) 0) k)
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  · show V c main_arg4 (((cfg3.win 1).blk t).view.emb (ix2 k (j 1)))
      = V c main_arg4 (ix2 k ((((cfg3.win 2).blk t).view.emb j) 1))
    refine congrArg _ (funext fun a => Fin.ext ?_)
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega

/-- An index of the output array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v45).slice (win3_2.rect t)).set ↔ _
  rw [View.set_slice_whole, Rect.mem_set_unit]
  exact Iff.rfl

/-- Row `r` of the output is written by point `r / 10000`: the blocks tile the array. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e4, e5⟩ := idx_facts t
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the call: the plain product of the two arrays the call was entered with. -/
theorem final (c : Dev nD) : (dat3 V c).arrAt 2 cfg3.N = prod (V c main_v44) (V c main_arg4) :=
  (dat3 V c).arrAt_eq_of_cover 2 _ (fun t _ => flushed_eq V c t) cover

end Cert.KernelIdeal.Project3

end
-- ==== Proof.Scale4.lean ====
/-
  The second layer's row-scaling call as one function of whole arrays.

  The call walks the [1700000, 64] array of gathered rows in 170 blocks of 10000 rows; at block `t` it multiplies the
  block by the matching 10000 entries of the weight column, broadcast across the 64 columns. Entry `(p, q)` of what
  block `t` writes back is therefore entry `(10000 t + p, q)` of `scaleRows` of the two whole arrays, the blocks
  tile the rows, and the output array ends holding `scaleRows` of the arrays the call was entered with — whatever
  those arrays are (`V` is a variable).
-/
import proofs.«128336_j1279900254338_2_alg».proof.Proof.Gen.KernelIdeal.Frame
import proofs.«128336_j1279900254338_2_alg».proof.Proof.Stages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale4

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's product at entry `(p, q)` of a block: the row's entry times the row's weight. -/
theorem pay_apply (x0 : Vec Ideal S10000x64 .f32) (x1 : Vec Ideal S10000x1 .f32) (p : Fin 10000) (q : Fin 64) :
    k4_pay1 x0 x1 (ix2 p q) = x0 (ix2 p q) * x1 (ix2 p (0 : Fin 1)) := by
  unfold k4_pay1
  exact scale_block x0 x1 _ _ _ p q

/-- The same against whole arrays: when the block's entry and the row's weight are the arrays' entries at `i`, the
    product is `scaleRows` of the arrays at `i`. -/
theorem pay_block (x0 : Vec Ideal S10000x64 .f32) (x1 : Vec Ideal S10000x1 .f32) (y : S10000x64.Idx)
    (G0 : Mat 1700000 64) (G1 : Mat 1700000 1) (i : S1700000x64.Idx)
    (h0 : x0 y = G0 i) (h1 : x1 (ix2 (y 0) (0 : Fin 1)) = G1 (ix2 (i 0) (0 : Fin 1))) :
    k4_pay1 x0 x1 y = scaleRows G0 G1 i := by
  obtain ⟨p, q, rfl⟩ : ∃ (p : Fin 10000) (q : Fin 64), y = ix2 p q := ⟨y 0, y 1, eq_ix2 y⟩
  rw [pay_apply]
  exact congrArg₂ (· * ·) h0 h1

/-- At point `t` every window is at row block `t`, column block 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of `scaleRows` of the arrays the call was entered with. -/
theorem flushed_eq (c : Dev nD) (t : Fin cfg4.N) :
    (dat4 V c).flushed 2 t = ((cfg4.win 2).blk t).view.read (Elt Ideal)
      (scaleRows (V c main_v52) (V c main_v53)) := by
  show (cfg4.win 2).cut (grid4.coords t) ((dat4 V c).after 2 t) = _
  rw [after4_2]
  unfold out4_2
  rw [View.canon_unit_zero hz]
  simp only [View.ld_unit_zero (S := S10000x64) hz, View.ld_unit_zero (S := S10000x1) hz]
  obtain ⟨e0, e1, e2, e3, e4, e5⟩ := idx_facts t
  funext j
  show k4_pay1 (iblk4 V c 0 t) (iblk4 V c 1 t) j
    = scaleRows (V c main_v52) (V c main_v53) (((cfg4.win 2).blk t).view.emb j)
  refine pay_block _ _ j _ _ _ ?_ ?_
  · show V c main_v52 (((cfg4.win 0).blk t).view.emb j) = V c main_v52 (((cfg4.win 2).blk t).view.emb j)
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  · show V c main_v53 (((cfg4.win 1).blk t).view.emb (ix2 (j 0) (0 : Fin 1)))
      = V c main_v53 (ix2 ((((cfg4.win 2).blk t).view.emb j) 0) (0 : Fin 1))
    refine congrArg _ (funext fun a => Fin.ext ?_)
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega

/-- An index of the output array is in point `t`'s block iff each coordinate is in the block's range on its axis. -/
theorem mem_blk (t : Fin cfg4.N) (i : S1700000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v54).slice (win4_2.rect t)).set ↔ _
  rw [View.set_slice_whole, Rect.mem_set_unit]
  exact Iff.rfl

/-- Row `r` of the output is written by point `r / 10000`: the blocks tile the array. -/
theorem cover (i : S1700000x64.Idx) :
    ∃ t : Fin cfg4.N, (cfg4.win 2).flush t = true ∧ i ∈ ((cfg4.win 2).blk t).view.set := by
  have hi0 : (i 0).val < 1700000 := (i 0).isLt
  have hi1 : (i 1).val < 64 := (i 1).isLt
  have hN : cfg4.N = 170 := N_4
  obtain ⟨t, ht⟩ : ∃ t : Fin cfg4.N, t.val = (i 0).val / 10000 := ⟨⟨(i 0).val / 10000, by rw [hN]; omega⟩, rfl⟩
  obtain ⟨-, -, -, -, e4, e5⟩ := idx_facts t
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The output array after the call: `scaleRows` of the two arrays the call was entered with. -/
theorem final (c : Dev nD) : (dat4 V c).arrAt 2 cfg4.N = scaleRows (V c main_v52) (V c main_v53) :=
  (dat4 V c).arrAt_eq_of_cover 2 _ (fun t _ => flushed_eq V c t) cover

end Cert.KernelIdeal.Scale4

end
-- ==== Proof.Bias5.lean ====
/-
  The second layer's bias call as one function of whole arrays.

  The call walks the [100000, 64] array of aggregated rows in 10 blocks of 10000 rows; at every block it adds the one
  bias row, broadcast down the block's rows. Entry `(p, q)` of what block `t` writes
  back is entry `(10000 t + p, q)` of `addRow` of the two whole arrays, the blocks tile the rows, and the output
  array ends holding `addRow` of the arrays the call was entered with — whatever those are (`V` is a variable).
-/
import proofs.«128336_j1279900254338_2_alg».proof.Proof.Gen.KernelIdeal.Frame
import proofs.«128336_j1279900254338_2_alg».proof.Proof.Stages
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Bias5

open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's value at entry `(p, q)` of a block. -/
theorem pay_apply (x0 : Vec Ideal S10000x64 .f32) (x1 : Vec Ideal S1x64 .f32) (p : Fin 10000) (q : Fin 64) :
    k5_pay1 x0 x1 (ix2 p q) = x0 (ix2 p q) + x1 (ix2 (0 : Fin 1) q) := by
  unfold k5_pay1
  exact bias_block x0 x1 _ _ _ p q

/-- The same against whole arrays: when the block's entry and the bias entry are the arrays' at `i`, the value is
    `addRow` of the arrays at `i`. -/
theorem pay_block (x0 : Vec Ideal S10000x64 .f32) (x1 : Vec Ideal S1x64 .f32) (y : S10000x64.Idx)
    (G0 : Mat 100000 64) (G1 : Mat 1 64) (i : S100000x64.Idx)
    (h0 : x0 y = G0 i) (h1 : x1 (ix2 (0 : Fin 1) (y 1)) = G1 (ix2 (0 : Fin 1) (i 1))) :
    k5_pay1 x0 x1 y = addRow G0 G1 i := by
  obtain ⟨p, q, rfl⟩ : ∃ (p : Fin 10000) (q : Fin 64), y = ix2 p q := ⟨y 0, y 1, eq_ix2 y⟩
  rw [pay_apply]
  exact congrArg₂ (· + ·) h0 h1

/-- At point `t` the row windows are at row block `t`, the bias window at its one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `addRow` of the arrays the call was entered with. -/
theorem flushed_eq (c : Dev nD) (t : Fin cfg5.N) :
    (dat5 V c).flushed 2 t = ((cfg5.win 2).blk t).view.read (Elt Ideal)
      (addRow (V c main_v57) (V c main_v58)) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  obtain ⟨e0, e1, e2, e3, e4, e5⟩ := idx_facts t
  funext j
  show k5_pay1 (iblk5 V c 0 t) (iblk5 V c 1 t) j
    = addRow (V c main_v57) (V c main_v58) (((cfg5.win 2).blk t).view.emb j)
  refine pay_block _ _ j _ _ _ ?_ ?_
  · show V c main_v57 (((cfg5.win 0).blk t).view.emb j) = V c main_v57 (((cfg5.win 2).blk t).view.emb j)
    refine congrArg _ (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  · show V c main_v58 (((cfg5.win 1).blk t).view.emb (ix2 (0 : Fin 1) (j 1)))
      = V c main_v58 (ix2 (0 : Fin 1) ((((cfg5.win 2).blk t).view.emb j) 1))
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega

/-- An index of the output array is in point `t`'s block iff each coordinate is in the block's range on its axis. -/
theorem mem_blk (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v59).slice (win5_2.rect t)).set ↔ _
  rw [View.set_slice_whole, Rect.mem_set_unit]
  exact Iff.rfl

/-- Row `r` of the output is written by point `r / 10000`: the blocks tile the array. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  obtain ⟨t, ht⟩ : ∃ t : Fin cfg5.N, t.val = (i 0).val / 10000 := ⟨⟨(i 0).val / 10000, by rw [hN]; omega⟩, rfl⟩
  obtain ⟨-, -, -, -, e4, e5⟩ := idx_facts t
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array after the call: `addRow` of the two arrays the call was entered with. -/
theorem final (c : Dev nD) : (dat5 V c).arrAt 2 cfg5.N = addRow (V c main_v57) (V c main_v58) :=
  (dat5 V c).arrAt_eq_of_cover 2 _ (fun t _ => flushed_eq V c t) cover

end Cert.KernelIdeal.Bias5

end
-- ==== Proof.KernelValue.lean ====
/-
  The kernel program's result as a function of its arguments.

  The program's buffer contents are followed from the launch through its thirteen segments. Three buffers computed
  at the start from the edge list stay live to the end — the sources, the targets and the edge weights — beside the
  weight and bias arguments; no later host operation writes them and no kernel call has them as an array, so each
  boundary's contents of them are the first boundary's. Each stretch of host operations is read at the one or two
  buffers the next kernel call takes; each kernel call's output array is the stage function of its two input
  arrays (the six stage modules). Composed, the result buffer holds `Val.out` of the six arguments.
-/
import proofs.«128336_j1279900254338_2_alg».proof.Proof.Gen.KernelIdeal.Frame
import proofs.«128336_j1279900254338_2_alg».proof.Proof.Terms
import proofs.«128336_j1279900254338_2_alg».proof.Proof.LibCat
import proofs.«128336_j1279900254338_2_alg».proof.Proof.Project0
import proofs.«128336_j1279900254338_2_alg».proof.Proof.Scale1
import proofs.«128336_j1279900254338_2_alg».proof.Proof.Bias2
import proofs.«128336_j1279900254338_2_alg».proof.Proof.Project3
import proofs.«128336_j1279900254338_2_alg».proof.Proof.Scale4
import proofs.«128336_j1279900254338_2_alg».proof.Proof.Bias5
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Walk

open Cert.KernelIdeal Cert.KernelIdeal.Gen Cert.KernelIdeal.Val Cert.Gcn Cert.MatProd

variable (m : (ℓ : Loc nD τ sig) → Buf (Elt Ideal) ℓ) (ρ : Dev nD → PrngReg)

/-- The edge list as launched. -/
abbrev ed (c : Dev nD) : Edges := m ((c : Thread nD τ).loc main_arg1)

/-! ## A called function's values at literal buffers: the transport along the buffer's type is the identity -/

theorem toBuf_cst_2 {Val : EltTy → Type} (h1 : main_cst_2.ty = ⟨S_, .f32⟩) (h2) (h3) (v : (⟨S_, .f32⟩ : BufTy).Contents Val) :
    (TRef.of (sig := sig) (T := ⟨S_, .f32⟩) main_cst_2 h1 h2 h3).toBuf v = v := rfl
theorem ofBuf_cst_2 {Val : EltTy → Type} (h1 : main_cst_2.ty = ⟨S_, .f32⟩) (h2) (h3) (v : main_cst_2.ty.Contents Val) :
    (TRef.of (sig := sig) (T := ⟨S_, .f32⟩) main_cst_2 h1 h2 h3).ofBuf v = v := rfl
theorem toBuf_call0_v0 {Val : EltTy → Type} (h1 : main_call0_v0.ty = ⟨S_, .f32⟩) (h2) (h3) (v : (⟨S_, .f32⟩ : BufTy).Contents Val) :
    (TRef.of (sig := sig) (T := ⟨S_, .f32⟩) main_call0_v0 h1 h2 h3).toBuf v = v := rfl
theorem ofBuf_call0_v0 {Val : EltTy → Type} (h1 : main_call0_v0.ty = ⟨S_, .f32⟩) (h2) (h3) (v : main_call0_v0.ty.Contents Val) :
    (TRef.of (sig := sig) (T := ⟨S_, .f32⟩) main_call0_v0 h1 h2 h3).ofBuf v = v := rfl
theorem toBuf_call0_v1 {Val : EltTy → Type} (h1 : main_call0_v1.ty = ⟨S100000, .f32⟩) (h2) (h3) (v : (⟨S100000, .f32⟩ : BufTy).Contents Val) :
    (TRef.of (sig := sig) (T := ⟨S100000, .f32⟩) main_call0_v1 h1 h2 h3).toBuf v = v := rfl
theorem ofBuf_call0_v1 {Val : EltTy → Type} (h1 : main_call0_v1.ty = ⟨S100000, .f32⟩) (h2) (h3) (v : main_call0_v1.ty.Contents Val) :
    (TRef.of (sig := sig) (T := ⟨S100000, .f32⟩) main_call0_v1 h1 h2 h3).ofBuf v = v := rfl
theorem toBuf_v12 {Val : EltTy → Type} (h1 : main_v12.ty = ⟨S100000, .i1⟩) (h2) (h3) (v : (⟨S100000, .i1⟩ : BufTy).Contents Val) :
    (TRef.of (sig := sig) (T := ⟨S100000, .i1⟩) main_v12 h1 h2 h3).toBuf v = v := rfl
theorem ofBuf_v12 {Val : EltTy → Type} (h1 : main_v12.ty = ⟨S100000, .i1⟩) (h2) (h3) (v : main_v12.ty.Contents Val) :
    (TRef.of (sig := sig) (T := ⟨S100000, .i1⟩) main_v12 h1 h2 h3).ofBuf v = v := rfl
theorem toBuf_v13 {Val : EltTy → Type} (h1 : main_v13.ty = ⟨S100000, .f32⟩) (h2) (h3) (v : (⟨S100000, .f32⟩ : BufTy).Contents Val) :
    (TRef.of (sig := sig) (T := ⟨S100000, .f32⟩) main_v13 h1 h2 h3).toBuf v = v := rfl
theorem ofBuf_v13 {Val : EltTy → Type} (h1 : main_v13.ty = ⟨S100000, .f32⟩) (h2) (h3) (v : main_v13.ty.Contents Val) :
    (TRef.of (sig := sig) (T := ⟨S100000, .f32⟩) main_v13 h1 h2 h3).ofBuf v = v := rfl
theorem toBuf_v14 {Val : EltTy → Type} (h1 : main_v14.ty = ⟨S100000, .f32⟩) (h2) (h3) (v : (⟨S100000, .f32⟩ : BufTy).Contents Val) :
    (TRef.of (sig := sig) (T := ⟨S100000, .f32⟩) main_v14 h1 h2 h3).toBuf v = v := rfl
theorem ofBuf_v14 {Val : EltTy → Type} (h1 : main_v14.ty = ⟨S100000, .f32⟩) (h2) (h3) (v : main_v14.ty.Contents Val) :
    (TRef.of (sig := sig) (T := ⟨S100000, .f32⟩) main_v14 h1 h2 h3).ofBuf v = v := rfl

/-! ## The graph-side quantities, computed before the first kernel call -/

theorem w1_v5 (c : Dev nD) : W1 m ρ c (Proc.devRef .tc main_v5) = srcV (ed m c) := by
  show after hostOps0 (W0 m ρ c) (Proc.devRef .tc main_v5) = _
  eval_line
  rfl
theorem w1_v6 (c : Dev nD) : W1 m ρ c (Proc.devRef .tc main_v6) = dstV (ed m c) := by
  show after hostOps0 (W0 m ρ c) (Proc.devRef .tc main_v6) = _
  eval_line
  rfl
theorem w1_v12 (c : Dev nD) : W1 m ρ c (Proc.devRef .tc main_v12)
    = cmpf (F := Ideal) .ogt (degV (ed m c)) (broadcastInDim S100000 ![] bcast_S_S100000 (constant (F := Ideal) S_ .f32 0x00000000#32)) := by
  show after hostOps0 (W0 m ρ c) (Proc.devRef .tc main_v12) = _
  eval_line
  rfl
theorem w1_v13 (c : Dev nD) : W1 m ρ c (Proc.devRef .tc main_v13) = Host.rsqrt (F := Ideal) (degV (ed m c)) := by
  show after hostOps0 (W0 m ρ c) (Proc.devRef .tc main_v13) = _
  eval_line
  rfl
theorem w1_cst_2 (c : Dev nD) : W1 m ρ c (Proc.devRef .tc main_cst_2) = constant (F := Ideal) S_ .f32 0x00000000#32 := by
  show after hostOps0 (W0 m ρ c) (Proc.devRef .tc main_cst_2) = _
  eval_line

/-- The inverse square roots of the degrees: the inlined `where`. -/
theorem w2_v14 (c : Dev nD) : W2 m ρ c (Proc.devRef .tc main_v14) = dinvV (ed m c) := by
  have h12 := w1_v12 m ρ c
  have h13 := w1_v13 m ρ c
  have hc := w1_cst_2 m ρ c
  show after hostOps0_1 (W1 m ρ c) (Proc.devRef .tc main_v14) = _
  generalize W1 m ρ c = V at h12 h13 hc ⊢
  eval_line
  simp only [toBuf_cst_2, ofBuf_cst_2, toBuf_call0_v0, ofBuf_call0_v0, toBuf_call0_v1, ofBuf_call0_v1, toBuf_v12, ofBuf_v12, toBuf_v13, ofBuf_v13, toBuf_v14, ofBuf_v14]
  rw [h12, h13, hc]
  rfl
theorem w2_v5 (c : Dev nD) : W2 m ρ c (Proc.devRef .tc main_v5) = srcV (ed m c) :=
  (show after hostOps0_1 (W1 m ρ c) (Proc.devRef .tc main_v5) = W1 m ρ c (Proc.devRef .tc main_v5) by
    generalize W1 m ρ c = V; eval_line).trans (w1_v5 m ρ c)
theorem w2_v6 (c : Dev nD) : W2 m ρ c (Proc.devRef .tc main_v6) = dstV (ed m c) :=
  (show after hostOps0_1 (W1 m ρ c) (Proc.devRef .tc main_v6) = W1 m ρ c (Proc.devRef .tc main_v6) by
    generalize W1 m ρ c = V; eval_line).trans (w1_v6 m ρ c)

theorem w3_v5 (c : Dev nD) : W3 m ρ c (Proc.devRef .tc main_v5) = srcV (ed m c) :=
  (show after hostOps0_2 (W2 m ρ c) (Proc.devRef .tc main_v5) = W2 m ρ c (Proc.devRef .tc main_v5) by
    generalize W2 m ρ c = V; eval_line).trans (w2_v5 m ρ c)
theorem w3_v6 (c : Dev nD) : W3 m ρ c (Proc.devRef .tc main_v6) = dstV (ed m c) :=
  (show after hostOps0_2 (W2 m ρ c) (Proc.devRef .tc main_v6) = W2 m ρ c (Proc.devRef .tc main_v6) by
    generalize W2 m ρ c = V; eval_line).trans (w2_v6 m ρ c)
/-- The edge weights. -/
theorem w3_v29 (c : Dev nD) : W3 m ρ c (Proc.devRef .tc main_v29) = normV (ed m c) := by
  have h5 := w2_v5 m ρ c
  have h6 := w2_v6 m ρ c
  have h14 := w2_v14 m ρ c
  show after hostOps0_2 (W2 m ρ c) (Proc.devRef .tc main_v29) = _
  generalize W2 m ρ c = V at h5 h6 h14 ⊢
  eval_line
  rw [h5, h6, h14]
  rfl
theorem w3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  eval_line
theorem w3_arg2 (c : Dev nD) : W3 m ρ c (Proc.devRef .tc main_arg2) = m ((c : Thread nD τ).loc main_arg2) := by
  show after hostOps0_2 (after hostOps0_1 (after hostOps0 (W0 m ρ c))) (Proc.devRef .tc main_arg2) = _
  eval_line
theorem w3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  eval_line
theorem w3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  eval_line
theorem w3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  eval_line

/-! ## What stays live across the segments -/

theorem w4_v5 (c : Dev nD) : W4 m ρ c (Proc.devRef .tc main_v5) = srcV (ed m c) :=
  (W4_of_ne m ρ c main_v5 (by decide)).trans (w3_v5 m ρ c)
theorem w4_v6 (c : Dev nD) : W4 m ρ c (Proc.devRef .tc main_v6) = dstV (ed m c) :=
  (W4_of_ne m ρ c main_v6 (by decide)).trans (w3_v6 m ρ c)
theorem w4_v29 (c : Dev nD) : W4 m ρ c (Proc.devRef .tc main_v29) = normV (ed m c) :=
  (W4_of_ne m ρ c main_v29 (by decide)).trans (w3_v29 m ρ c)
theorem w4_arg3 (c : Dev nD) : W4 m ρ c (Proc.devRef .tc main_arg3) = m ((c : Thread nD τ).loc main_arg3) :=
  (W4_of_ne m ρ c main_arg3 (by decide)).trans (w3_arg3 m ρ c)
theorem w4_arg4 (c : Dev nD) : W4 m ρ c (Proc.devRef .tc main_arg4) = m ((c : Thread nD τ).loc main_arg4) :=
  (W4_of_ne m ρ c main_arg4 (by decide)).trans (w3_arg4 m ρ c)
theorem w4_arg5 (c : Dev nD) : W4 m ρ c (Proc.devRef .tc main_arg5) = m ((c : Thread nD τ).loc main_arg5) :=
  (W4_of_ne m ρ c main_arg5 (by decide)).trans (w3_arg5 m ρ c)
theorem w5_v5 (c : Dev nD) : W5 m ρ c (Proc.devRef .tc main_v5) = srcV (ed m c) :=
  (show after hostOps1 (W4 m ρ c) (Proc.devRef .tc main_v5) = W4 m ρ c (Proc.devRef .tc main_v5) by eval_line).trans (w4_v5 m ρ c)
theorem w5_v6 (c : Dev nD) : W5 m ρ c (Proc.devRef .tc main_v6) = dstV (ed m c) :=
  (show after hostOps1 (W4 m ρ c) (Proc.devRef .tc main_v6) = W4 m ρ c (Proc.devRef .tc main_v6) by eval_line).trans (w4_v6 m ρ c)
theorem w5_v29 (c : Dev nD) : W5 m ρ c (Proc.devRef .tc main_v29) = normV (ed m c) :=
  (show after hostOps1 (W4 m ρ c) (Proc.devRef .tc main_v29) = W4 m ρ c (Proc.devRef .tc main_v29) by eval_line).trans (w4_v29 m ρ c)
theorem w5_arg3 (c : Dev nD) : W5 m ρ c (Proc.devRef .tc main_arg3) = m ((c : Thread nD τ).loc main_arg3) :=
  (show after hostOps1 (W4 m ρ c) (Proc.devRef .tc main_arg3) = W4 m ρ c (Proc.devRef .tc main_arg3) by eval_line).trans (w4_arg3 m ρ c)
theorem w5_arg4 (c : Dev nD) : W5 m ρ c (Proc.devRef .tc main_arg4) = m ((c : Thread nD τ).loc main_arg4) :=
  (show after hostOps1 (W4 m ρ c) (Proc.devRef .tc main_arg4) = W4 m ρ c (Proc.devRef .tc main_arg4) by eval_line).trans (w4_arg4 m ρ c)
theorem w5_arg5 (c : Dev nD) : W5 m ρ c (Proc.devRef .tc main_arg5) = m ((c : Thread nD τ).loc main_arg5) :=
  (show after hostOps1 (W4 m ρ c) (Proc.devRef .tc main_arg5) = W4 m ρ c (Proc.devRef .tc main_arg5) by eval_line).trans (w4_arg5 m ρ c)
theorem w6_v5 (c : Dev nD) : W6 m ρ c (Proc.devRef .tc main_v5) = srcV (ed m c) :=
  (W6_of_ne m ρ c main_v5 (by decide)).trans (w5_v5 m ρ c)
theorem w6_v6 (c : Dev nD) : W6 m ρ c (Proc.devRef .tc main_v6) = dstV (ed m c) :=
  (W6_of_ne m ρ c main_v6 (by decide)).trans (w5_v6 m ρ c)
theorem w6_v29 (c : Dev nD) : W6 m ρ c (Proc.devRef .tc main_v29) = normV (ed m c) :=
  (W6_of_ne m ρ c main_v29 (by decide)).trans (w5_v29 m ρ c)
theorem w6_arg3 (c : Dev nD) : W6 m ρ c (Proc.devRef .tc main_arg3) = m ((c : Thread nD τ).loc main_arg3) :=
  (W6_of_ne m ρ c main_arg3 (by decide)).trans (w5_arg3 m ρ c)
theorem w6_arg4 (c : Dev nD) : W6 m ρ c (Proc.devRef .tc main_arg4) = m ((c : Thread nD τ).loc main_arg4) :=
  (W6_of_ne m ρ c main_arg4 (by decide)).trans (w5_arg4 m ρ c)
theorem w6_arg5 (c : Dev nD) : W6 m ρ c (Proc.devRef .tc main_arg5) = m ((c : Thread nD τ).loc main_arg5) :=
  (W6_of_ne m ρ c main_arg5 (by decide)).trans (w5_arg5 m ρ c)
theorem w7_v5 (c : Dev nD) : W7 m ρ c (Proc.devRef .tc main_v5) = srcV (ed m c) :=
  (show after hostOps2 (W6 m ρ c) (Proc.devRef .tc main_v5) = W6 m ρ c (Proc.devRef .tc main_v5) by eval_line).trans (w6_v5 m ρ c)
theorem w7_v6 (c : Dev nD) : W7 m ρ c (Proc.devRef .tc main_v6) = dstV (ed m c) :=
  (show after hostOps2 (W6 m ρ c) (Proc.devRef .tc main_v6) = W6 m ρ c (Proc.devRef .tc main_v6) by eval_line).trans (w6_v6 m ρ c)
theorem w7_v29 (c : Dev nD) : W7 m ρ c (Proc.devRef .tc main_v29) = normV (ed m c) :=
  (show after hostOps2 (W6 m ρ c) (Proc.devRef .tc main_v29) = W6 m ρ c (Proc.devRef .tc main_v29) by eval_line).trans (w6_v29 m ρ c)
theorem w7_arg4 (c : Dev nD) : W7 m ρ c (Proc.devRef .tc main_arg4) = m ((c : Thread nD τ).loc main_arg4) :=
  (show after hostOps2 (W6 m ρ c) (Proc.devRef .tc main_arg4) = W6 m ρ c (Proc.devRef .tc main_arg4) by eval_line).trans (w6_arg4 m ρ c)
theorem w7_arg5 (c : Dev nD) : W7 m ρ c (Proc.devRef .tc main_arg5) = m ((c : Thread nD τ).loc main_arg5) :=
  (show after hostOps2 (W6 m ρ c) (Proc.devRef .tc main_arg5) = W6 m ρ c (Proc.devRef .tc main_arg5) by eval_line).trans (w6_arg5 m ρ c)
theorem w8_v5 (c : Dev nD) : W8 m ρ c (Proc.devRef .tc main_v5) = srcV (ed m c) :=
  (W8_of_ne m ρ c main_v5 (by decide)).trans (w7_v5 m ρ c)
theorem w8_v6 (c : Dev nD) : W8 m ρ c (Proc.devRef .tc main_v6) = dstV (ed m c) :=
  (W8_of_ne m ρ c main_v6 (by decide)).trans (w7_v6 m ρ c)
theorem w8_v29 (c : Dev nD) : W8 m ρ c (Proc.devRef .tc main_v29) = normV (ed m c) :=
  (W8_of_ne m ρ c main_v29 (by decide)).trans (w7_v29 m ρ c)
theorem w8_arg4 (c : Dev nD) : W8 m ρ c (Proc.devRef .tc main_arg4) = m ((c : Thread nD τ).loc main_arg4) :=
  (W8_of_ne m ρ c main_arg4 (by decide)).trans (w7_arg4 m ρ c)
theorem w8_arg5 (c : Dev nD) : W8 m ρ c (Proc.devRef .tc main_arg5) = m ((c : Thread nD τ).loc main_arg5) :=
  (W8_of_ne m ρ c main_arg5 (by decide)).trans (w7_arg5 m ρ c)
theorem w9_v5 (c : Dev nD) : W9 m ρ c (Proc.devRef .tc main_v5) = srcV (ed m c) :=
  (W9_of_ne m ρ c main_v5 (by decide)).trans (w8_v5 m ρ c)
theorem w9_v6 (c : Dev nD) : W9 m ρ c (Proc.devRef .tc main_v6) = dstV (ed m c) :=
  (W9_of_ne m ρ c main_v6 (by decide)).trans (w8_v6 m ρ c)
theorem w9_v29 (c : Dev nD) : W9 m ρ c (Proc.devRef .tc main_v29) = normV (ed m c) :=
  (W9_of_ne m ρ c main_v29 (by decide)).trans (w8_v29 m ρ c)
theorem w9_arg5 (c : Dev nD) : W9 m ρ c (Proc.devRef .tc main_arg5) = m ((c : Thread nD τ).loc main_arg5) :=
  (W9_of_ne m ρ c main_arg5 (by decide)).trans (w8_arg5 m ρ c)
theorem w10_v6 (c : Dev nD) : W10 m ρ c (Proc.devRef .tc main_v6) = dstV (ed m c) :=
  (show after hostOps4 (W9 m ρ c) (Proc.devRef .tc main_v6) = W9 m ρ c (Proc.devRef .tc main_v6) by eval_line).trans (w9_v6 m ρ c)
theorem w10_arg5 (c : Dev nD) : W10 m ρ c (Proc.devRef .tc main_arg5) = m ((c : Thread nD τ).loc main_arg5) :=
  (show after hostOps4 (W9 m ρ c) (Proc.devRef .tc main_arg5) = W9 m ρ c (Proc.devRef .tc main_arg5) by eval_line).trans (w9_arg5 m ρ c)
theorem w11_v6 (c : Dev nD) : W11 m ρ c (Proc.devRef .tc main_v6) = dstV (ed m c) :=
  (W11_of_ne m ρ c main_v6 (by decide)).trans (w10_v6 m ρ c)
theorem w11_arg5 (c : Dev nD) : W11 m ρ c (Proc.devRef .tc main_arg5) = m ((c : Thread nD τ).loc main_arg5) :=
  (W11_of_ne m ρ c main_arg5 (by decide)).trans (w10_arg5 m ρ c)

/-! ## The first layer -/

/-- The first projection's output. -/
theorem w4_v30 (c : Dev nD) : W4 m ρ c (Proc.devRef .tc main_v30)
    = prod (m ((c : Thread nD τ).loc main_arg0)) (m ((c : Thread nD τ).loc main_arg2)) := by
  refine (W4_arr m ρ c 2).trans ((Project0.final (V3 m ρ) c).trans ?_)
  show prod (W3 m ρ c (Proc.devRef .tc main_arg0)) (W3 m ρ c (Proc.devRef .tc main_arg2)) = _
  rw [w3_arg0, w3_arg2]

theorem w5_v37 (c : Dev nD) : W5 m ρ c (Proc.devRef .tc main_v37)
    = gatherRows (ed m c) (prod (m ((c : Thread nD τ).loc main_arg0)) (m ((c : Thread nD τ).loc main_arg2))) := by
  have h30 := w4_v30 m ρ c
  have h5 := w4_v5 m ρ c
  show after hostOps1 (W4 m ρ c) (Proc.devRef .tc main_v37) = _
  generalize W4 m ρ c = V at h30 h5 ⊢
  eval_line
  rw [h30, h5]
  rfl
theorem w5_v38 (c : Dev nD) : W5 m ρ c (Proc.devRef .tc main_v38) = normCol (ed m c) := by
  have h29 := w4_v29 m ρ c
  show after hostOps1 (W4 m ρ c) (Proc.devRef .tc main_v38) = _
  generalize W4 m ρ c = V at h29 ⊢
  eval_line
  rw [h29]
  rfl

/-- The first scaling's output. -/
theorem w6_v39 (c : Dev nD) : W6 m ρ c (Proc.devRef .tc main_v39)
    = scaleRows (gatherRows (ed m c) (prod (m ((c : Thread nD τ).loc main_arg0)) (m ((c : Thread nD τ).loc main_arg2)))) (normCol (ed m c)) := by
  refine (W6_arr m ρ c 2).trans ((Scale1.final (V5 m ρ) c).trans ?_)
  show scaleRows (W5 m ρ c (Proc.devRef .tc main_v37)) (W5 m ρ c (Proc.devRef .tc main_v38)) = _
  rw [w5_v37, w5_v38]

theorem w7_v42 (c : Dev nD) : W7 m ρ c (Proc.devRef .tc main_v42)
    = layer (ed m c) (prod (m ((c : Thread nD τ).loc main_arg0)) (m ((c : Thread nD τ).loc main_arg2))) := by
  have h39 := w6_v39 m ρ c
  have h6 := w6_v6 m ρ c
  show after hostOps2 (W6 m ρ c) (Proc.devRef .tc main_v42) = _
  generalize W6 m ρ c = V at h39 h6 ⊢
  eval_line
  rw [h39, h6]
  rfl
theorem w7_v43 (c : Dev nD) : W7 m ρ c (Proc.devRef .tc main_v43) = biasRow (m ((c : Thread nD τ).loc main_arg3)) := by
  have h3 := w6_arg3 m ρ c
  show after hostOps2 (W6 m ρ c) (Proc.devRef .tc main_v43) = _
  generalize W6 m ρ c = V at h3 ⊢
  eval_line
  rw [h3]
  rfl

/-- The first layer's output. -/
theorem w8_v44 (c : Dev nD) : W8 m ρ c (Proc.devRef .tc main_v44)
    = hidden (m ((c : Thread nD τ).loc main_arg0)) (ed m c) (m ((c : Thread nD τ).loc main_arg2)) (m ((c : Thread nD τ).loc main_arg3)) := by
  refine (W8_arr m ρ c 2).trans ((Bias2.final (V7 m ρ) c).trans ?_)
  show addRowClamp (W7 m ρ c (Proc.devRef .tc main_v42)) (W7 m ρ c (Proc.devRef .tc main_v43)) = _
  rw [w7_v42, w7_v43]
  rfl

/-! ## The second layer -/

/-- Abbreviation: the first layer's output as launched. -/
abbrev hid (c : Dev nD) : Mat 100000 64 :=
  hidden (m ((c : Thread nD τ).loc main_arg0)) (ed m c) (m ((c : Thread nD τ).loc main_arg2)) (m ((c : Thread nD τ).loc main_arg3))

theorem w9_v45 (c : Dev nD) : W9 m ρ c (Proc.devRef .tc main_v45) = prod (hid m c) (m ((c : Thread nD τ).loc main_arg4)) := by
  refine (W9_arr m ρ c 2).trans ((Project3.final (V8 m ρ) c).trans ?_)
  show prod (W8 m ρ c (Proc.devRef .tc main_v44)) (W8 m ρ c (Proc.devRef .tc main_arg4)) = _
  rw [w8_v44, w8_arg4]

theorem w10_v52 (c : Dev nD) : W10 m ρ c (Proc.devRef .tc main_v52)
    = gatherRows (ed m c) (prod (hid m c) (m ((c : Thread nD τ).loc main_arg4))) := by
  have h45 := w9_v45 m ρ c
  have h5 := w9_v5 m ρ c
  show after hostOps4 (W9 m ρ c) (Proc.devRef .tc main_v52) = _
  generalize W9 m ρ c = V at h45 h5 ⊢
  eval_line
  rw [h45, h5]
  rfl
theorem w10_v53 (c : Dev nD) : W10 m ρ c (Proc.devRef .tc main_v53) = normCol (ed m c) := by
  have h29 := w9_v29 m ρ c
  show after hostOps4 (W9 m ρ c) (Proc.devRef .tc main_v53) = _
  generalize W9 m ρ c = V at h29 ⊢
  eval_line
  rw [h29]
  rfl

theorem w11_v54 (c : Dev nD) : W11 m ρ c (Proc.devRef .tc main_v54)
    = scaleRows (gatherRows (ed m c) (prod (hid m c) (m ((c : Thread nD τ).loc main_arg4)))) (normCol (ed m c)) := by
  refine (W11_arr m ρ c 2).trans ((Scale4.final (V10 m ρ) c).trans ?_)
  show scaleRows (W10 m ρ c (Proc.devRef .tc main_v52)) (W10 m ρ c (Proc.devRef .tc main_v53)) = _
  rw [w10_v52, w10_v53]

theorem w12_v57 (c : Dev nD) : W12 m ρ c (Proc.devRef .tc main_v57)
    = layer (ed m c) (prod (hid m c) (m ((c : Thread nD τ).loc main_arg4))) := by
  have h54 := w11_v54 m ρ c
  have h6 := w11_v6 m ρ c
  show after hostOps5 (W11 m ρ c) (Proc.devRef .tc main_v57) = _
  generalize W11 m ρ c = V at h54 h6 ⊢
  eval_line
  rw [h54, h6]
  rfl
theorem w12_v58 (c : Dev nD) : W12 m ρ c (Proc.devRef .tc main_v58) = biasRow (m ((c : Thread nD τ).loc main_arg5)) := by
  have h5 := w11_arg5 m ρ c
  show after hostOps5 (W11 m ρ c) (Proc.devRef .tc main_v58) = _
  generalize W11 m ρ c = V at h5 ⊢
  eval_line
  rw [h5]
  rfl

/-- THE RESULT: the last boundary's contents of the result buffer are the network's output of the six arguments. -/
theorem result (c : Dev nD) : W13 m ρ c (Proc.devRef .tc main_v59)
    = out (m ((c : Thread nD τ).loc main_arg0)) (ed m c) (m ((c : Thread nD τ).loc main_arg2)) (m ((c : Thread nD τ).loc main_arg3))
        (m ((c : Thread nD τ).loc main_arg4)) (m ((c : Thread nD τ).loc main_arg5)) := by
  refine (W13_arr m ρ c 2).trans ((Bias5.final (V12 m ρ) c).trans ?_)
  show addRow (W12 m ρ c (Proc.devRef .tc main_v57)) (W12 m ρ c (Proc.devRef .tc main_v58)) = _
  rw [w12_v57, w12_v58]
  rfl

end Cert.KernelIdeal.Walk

end
-- ==== Proof.RefValueA.lean ====
/-
  The reference program's result, first half: through the first layer.

  The reference is one line of 119 host operations; it is read in eleven consecutive pieces (the three inlined calls
  each a piece of their own), each at the few buffers the later pieces take, and each buffer's contents are named by
  the same quantities as on the kernel's side: the sources, the targets, the inverse square roots of the degrees, the
  edge weights, the gathered and scaled rows, the aggregated rows, and the dense stages, which the host spells with
  `broadcast_in_dim`s of the bias and weight vectors and a `dot_general` (`Stages`: the same functions). This module
  defines the contents after each piece and reads the first six: at their end the first layer's output is `Val.hidden`.
-/
import proofs.«128336_j1279900254338_2_alg».proof.Proof.RefRunP
import proofs.«128336_j1279900254338_2_alg».proof.Proof.Terms
import proofs.«128336_j1279900254338_2_alg».proof.Proof.LibCat

set_option maxRecDepth 16384

noncomputable section

open Idealize.ShloMosaic Idealize.ShloMosaic.TcCoe Idealize.SL.Sem Idealize.ShloMosaic.StableHlo Idealize.ShloMosaic.ValueIdx

namespace Cert.ReferenceIdeal.Walk

open Cert.ReferenceIdeal Cert.ReferenceIdeal.Gen Cert.ReferenceIdeal.RunP Cert.Gcn Cert.MatProd
open Cert.KernelIdeal.Val (Edges srcV dstV wrapIdx degV dinvV normV normCol gatherRows aggregate biasRow layer hidden out)

variable (m : (ℓ : Loc nD τ sig) → Buf (Elt Ideal) ℓ)

/-! ## A called function's values at literal buffers: the transport along the buffer's type is the identity -/

theorem toBuf_cst_2 {Val : EltTy → Type} (h1 : main_cst_2.ty = ⟨S_, .f32⟩) (h2) (h3) (v : (⟨S_, .f32⟩ : BufTy).Contents Val) :
    (TRef.of (sig := sig) (T := ⟨S_, .f32⟩) main_cst_2 h1 h2 h3).toBuf v = v := rfl
theorem ofBuf_cst_2 {Val : EltTy → Type} (h1 : main_cst_2.ty = ⟨S_, .f32⟩) (h2) (h3) (v : main_cst_2.ty.Contents Val) :
    (TRef.of (sig := sig) (T := ⟨S_, .f32⟩) main_cst_2 h1 h2 h3).ofBuf v = v := rfl
theorem toBuf_call0_v0 {Val : EltTy → Type} (h1 : main_call0_v0.ty = ⟨S_, .f32⟩) (h2) (h3) (v : (⟨S_, .f32⟩ : BufTy).Contents Val) :
    (TRef.of (sig := sig) (T := ⟨S_, .f32⟩) main_call0_v0 h1 h2 h3).toBuf v = v := rfl
theorem ofBuf_call0_v0 {Val : EltTy → Type} (h1 : main_call0_v0.ty = ⟨S_, .f32⟩) (h2) (h3) (v : main_call0_v0.ty.Contents Val) :
    (TRef.of (sig := sig) (T := ⟨S_, .f32⟩) main_call0_v0 h1 h2 h3).ofBuf v = v := rfl
theorem toBuf_call0_v1 {Val : EltTy → Type} (h1 : main_call0_v1.ty = ⟨S100000, .f32⟩) (h2) (h3) (v : (⟨S100000, .f32⟩ : BufTy).Contents Val) :
    (TRef.of (sig := sig) (T := ⟨S100000, .f32⟩) main_call0_v1 h1 h2 h3).toBuf v = v := rfl
theorem ofBuf_call0_v1 {Val : EltTy → Type} (h1 : main_call0_v1.ty = ⟨S100000, .f32⟩) (h2) (h3) (v : main_call0_v1.ty.Contents Val) :
    (TRef.of (sig := sig) (T := ⟨S100000, .f32⟩) main_call0_v1 h1 h2 h3).ofBuf v = v := rfl
theorem toBuf_v13 {Val : EltTy → Type} (h1 : main_v13.ty = ⟨S100000, .i1⟩) (h2) (h3) (v : (⟨S100000, .i1⟩ : BufTy).Contents Val) :
    (TRef.of (sig := sig) (T := ⟨S100000, .i1⟩) main_v13 h1 h2 h3).toBuf v = v := rfl
theorem ofBuf_v13 {Val : EltTy → Type} (h1 : main_v13.ty = ⟨S100000, .i1⟩) (h2) (h3) (v : main_v13.ty.Contents Val) :
    (TRef.of (sig := sig) (T := ⟨S100000, .i1⟩) main_v13 h1 h2 h3).ofBuf v = v := rfl
theorem toBuf_v14 {Val : EltTy → Type} (h1 : main_v14.ty = ⟨S100000, .f32⟩) (h2) (h3) (v : (⟨S100000, .f32⟩ : BufTy).Contents Val) :
    (TRef.of (sig := sig) (T := ⟨S100000, .f32⟩) main_v14 h1 h2 h3).toBuf v = v := rfl
theorem ofBuf_v14 {Val : EltTy → Type} (h1 : main_v14.ty = ⟨S100000, .f32⟩) (h2) (h3) (v : main_v14.ty.Contents Val) :
    (TRef.of (sig := sig) (T := ⟨S100000, .f32⟩) main_v14 h1 h2 h3).ofBuf v = v := rfl
theorem toBuf_v15 {Val : EltTy → Type} (h1 : main_v15.ty = ⟨S100000, .f32⟩) (h2) (h3) (v : (⟨S100000, .f32⟩ : BufTy).Contents Val) :
    (TRef.of (sig := sig) (T := ⟨S100000, .f32⟩) main_v15 h1 h2 h3).toBuf v = v := rfl
theorem ofBuf_v15 {Val : EltTy → Type} (h1 : main_v15.ty = ⟨S100000, .f32⟩) (h2) (h3) (v : main_v15.ty.Contents Val) :
    (TRef.of (sig := sig) (T := ⟨S100000, .f32⟩) main_v15 h1 h2 h3).ofBuf v = v := rfl
theorem toBuf_call1_cst {Val : EltTy → Type} (h1 : main_call1_cst.ty = ⟨S_, .f32⟩) (h2) (h3) (v : (⟨S_, .f32⟩ : BufTy).Contents Val) :
    (TRef.of (sig := sig) (T := ⟨S_, .f32⟩) main_call1_cst h1 h2 h3).toBuf v = v := rfl
theorem ofBuf_call1_cst {Val : EltTy → Type} (h1 : main_call1_cst.ty = ⟨S_, .f32⟩) (h2) (h3) (v : main_call1_cst.ty.Contents Val) :
    (TRef.of (sig := sig) (T := ⟨S_, .f32⟩) main_call1_cst h1 h2 h3).ofBuf v = v := rfl
theorem toBuf_call1_v0 {Val : EltTy → Type} (h1 : main_call1_v0.ty = ⟨S100000x64, .f32⟩) (h2) (h3) (v : (⟨S100000x64, .f32⟩ : BufTy).Contents Val) :
    (TRef.of (sig := sig) (T := ⟨S100000x64, .f32⟩) main_call1_v0 h1 h2 h3).toBuf v = v := rfl
theorem ofBuf_call1_v0 {Val : EltTy → Type} (h1 : main_call1_v0.ty = ⟨S100000x64, .f32⟩) (h2) (h3) (v : main_call1_v0.ty.Contents Val) :
    (TRef.of (sig := sig) (T := ⟨S100000x64, .f32⟩) main_call1_v0 h1 h2 h3).ofBuf v = v := rfl
theorem toBuf_v46 {Val : EltTy → Type} (h1 : main_v46.ty = ⟨S100000x64, .f32⟩) (h2) (h3) (v : (⟨S100000x64, .f32⟩ : BufTy).Contents Val) :
    (TRef.of (sig := sig) (T := ⟨S100000x64, .f32⟩) main_v46 h1 h2 h3).toBuf v = v := rfl
theorem ofBuf_v46 {Val : EltTy → Type} (h1 : main_v46.ty = ⟨S100000x64, .f32⟩) (h2) (h3) (v : main_v46.ty.Contents Val) :
    (TRef.of (sig := sig) (T := ⟨S100000x64, .f32⟩) main_v46 h1 h2 h3).ofBuf v = v := rfl
theorem toBuf_v47 {Val : EltTy → Type} (h1 : main_v47.ty = ⟨S100000x64, .f32⟩) (h2) (h3) (v : (⟨S100000x64, .f32⟩ : BufTy).Contents Val) :
    (TRef.of (sig := sig) (T := ⟨S100000x64, .f32⟩) main_v47 h1 h2 h3).toBuf v = v := rfl
theorem ofBuf_v47 {Val : EltTy → Type} (h1 : main_v47.ty = ⟨S100000x64, .f32⟩) (h2) (h3) (v : main_v47.ty.Contents Val) :
    (TRef.of (sig := sig) (T := ⟨S100000x64, .f32⟩) main_v47 h1 h2 h3).ofBuf v = v := rfl

/-- A line run after another is the two lines run as one. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The clamp at zero as the host spells it after the bias: the maximum with a zero constant spread over the matrix. -/
theorem addRowClamp_eq_max {N C : Nat} (a : FVec Ideal ⟨2, ![N, C]⟩ .f32) (b : FVec Ideal ⟨2, ![1, C]⟩ .f32)
    (h0 : (⟨0, ![]⟩ : Shape).BroadcastsInDim ⟨2, ![N, C]⟩ (![] : Fin 0 → Fin 2)) :
    maximumf (F := Ideal) (φ := .f32) (addRow a b) (broadcastInDim ⟨2, ![N, C]⟩ ![] h0 (constant (F := Ideal) ⟨0, ![]⟩ .f32 0x00000000#32))
      = addRowClamp a b := by
  funext i
  rw [maximumf_apply, splat_apply]
  rfl

/-- The edge list as launched. -/
abbrev ed (c : Dev nD) : Edges := m ((c : Thread nD τ).loc main_arg1)

/-- The buffer contents after each of the eleven pieces. -/
def UA (c : Dev nD) : Valuation τ sig (Elt Ideal) := after opsA (launchContents m c)
def UW (c : Dev nD) : Valuation τ sig (Elt Ideal) := after opsW (UA m c)
def UB (c : Dev nD) : Valuation τ sig (Elt Ideal) := after opsB (UW m c)
def UC (c : Dev nD) : Valuation τ sig (Elt Ideal) := after opsC (UB m c)
def UD (c : Dev nD) : Valuation τ sig (Elt Ideal) := after opsD (UC m c)
def UR (c : Dev nD) : Valuation τ sig (Elt Ideal) := after opsR (UD m c)
def UP (c : Dev nD) : Valuation τ sig (Elt Ideal) := after opsP (UR m c)
def UX (c : Dev nD) : Valuation τ sig (Elt Ideal) := after opsX (UP m c)
def UF (c : Dev nD) : Valuation τ sig (Elt Ideal) := after opsF (UX m c)
def UG (c : Dev nD) : Valuation τ sig (Elt Ideal) := after opsG (UF m c)
def UH (c : Dev nD) : Valuation τ sig (Elt Ideal) := after opsH (UG m c)

/-- The whole line's fold is the last piece's. -/
theorem after_ops (c : Dev nD) : after ops (launchContents m c) = UH m c := by
  rw [ops_cut]
  simp only [after_append]
  rfl

/-! ## Piece A: the edge list's halves, the first projection, the degrees -/

theorem uA_v6 (c : Dev nD) : UA m c (Proc.devRef .tc main_v6) = srcV (ed m c) := by
  unfold UA; eval_line; rfl
theorem uA_v7 (c : Dev nD) : UA m c (Proc.devRef .tc main_v7) = dstV (ed m c) := by
  unfold UA; eval_line; rfl
theorem uA_v1 (c : Dev nD) : UA m c (Proc.devRef .tc main_v1)
    = shapeCast S1600000 (extractStridedSlice S1x1600000 ![0, 0] (ed m c) slices_S2x1600000_S1x1600000_0_0) shapeCasts_S1x1600000_S1600000 := by
  unfold UA; eval_line; rfl
theorem uA_v3 (c : Dev nD) : UA m c (Proc.devRef .tc main_v3)
    = shapeCast S1600000 (extractStridedSlice S1x1600000 ![1, 0] (ed m c) slices_S2x1600000_S1x1600000_1_0) shapeCasts_S1x1600000_S1600000 := by
  unfold UA; eval_line; rfl
theorem uA_v4 (c : Dev nD) : UA m c (Proc.devRef .tc main_v4) = prod (m ((c : Thread nD τ).loc main_arg0)) (m ((c : Thread nD τ).loc main_arg2)) := by
  unfold UA; eval_line
  exact dotGeneral_plain_eq none _ _ _
theorem uA_v13 (c : Dev nD) : UA m c (Proc.devRef .tc main_v13)
    = cmpf (F := Ideal) .ogt (degV (ed m c)) (broadcastInDim S100000 ![] bcast_S_S100000 (constant (F := Ideal) S_ .f32 0x00000000#32)) := by
  unfold UA; eval_line; rfl
theorem uA_v14 (c : Dev nD) : UA m c (Proc.devRef .tc main_v14) = Host.rsqrt (F := Ideal) (degV (ed m c)) := by
  unfold UA; eval_line; rfl
theorem uA_cst_2 (c : Dev nD) : UA m c (Proc.devRef .tc main_cst_2) = constant (F := Ideal) S_ .f32 0x00000000#32 := by
  unfold UA; eval_line
theorem uA_arg3 (c : Dev nD) : UA m c (Proc.devRef .tc main_arg3) = m ((c : Thread nD τ).loc main_arg3) := by
  unfold UA; eval_line
theorem uA_arg4 (c : Dev nD) : UA m c (Proc.devRef .tc main_arg4) = m ((c : Thread nD τ).loc main_arg4) := by
  unfold UA; eval_line
theorem uA_arg5 (c : Dev nD) : UA m c (Proc.devRef .tc main_arg5) = m ((c : Thread nD τ).loc main_arg5) := by
  unfold UA; eval_line

/-! ## Piece W: the inverse square roots of the degrees (the inlined `where`) -/

theorem uW_v15 (c : Dev nD) : UW m c (Proc.devRef .tc main_v15) = dinvV (ed m c) := by
  unfold UW; eval_line
  simp only [toBuf_cst_2, ofBuf_cst_2, toBuf_call0_v0, ofBuf_call0_v0, toBuf_call0_v1, ofBuf_call0_v1, toBuf_v13, ofBuf_v13, toBuf_v14, ofBuf_v14, toBuf_v15, ofBuf_v15, toBuf_call1_cst, ofBuf_call1_cst, toBuf_call1_v0, ofBuf_call1_v0, toBuf_v46, ofBuf_v46, toBuf_v47, ofBuf_v47]
  rw [uA_v13, uA_v14, uA_cst_2]
  rfl
theorem uW_v6 (c : Dev nD) : UW m c (Proc.devRef .tc main_v6) = srcV (ed m c) :=
  (show UW m c (Proc.devRef .tc main_v6) = UA m c (Proc.devRef .tc main_v6) by unfold UW; eval_line).trans (uA_v6 m c)
theorem uW_v7 (c : Dev nD) : UW m c (Proc.devRef .tc main_v7) = dstV (ed m c) :=
  (show UW m c (Proc.devRef .tc main_v7) = UA m c (Proc.devRef .tc main_v7) by unfold UW; eval_line).trans (uA_v7 m c)
theorem uW_v4 (c : Dev nD) : UW m c (Proc.devRef .tc main_v4) = prod (m ((c : Thread nD τ).loc main_arg0)) (m ((c : Thread nD τ).loc main_arg2)) :=
  (show UW m c (Proc.devRef .tc main_v4) = UA m c (Proc.devRef .tc main_v4) by unfold UW; eval_line).trans (uA_v4 m c)
theorem uW_v1 (c : Dev nD) : UW m c (Proc.devRef .tc main_v1) = shapeCast S1600000 (extractStridedSlice S1x1600000 ![0, 0] (ed m c) slices_S2x1600000_S1x1600000_0_0) shapeCasts_S1x1600000_S1600000 :=
  (show UW m c (Proc.devRef .tc main_v1) = UA m c (Proc.devRef .tc main_v1) by unfold UW; eval_line).trans (uA_v1 m c)
theorem uW_v3 (c : Dev nD) : UW m c (Proc.devRef .tc main_v3) = shapeCast S1600000 (extractStridedSlice S1x1600000 ![1, 0] (ed m c) slices_S2x1600000_S1x1600000_1_0) shapeCasts_S1x1600000_S1600000 :=
  (show UW m c (Proc.devRef .tc main_v3) = UA m c (Proc.devRef .tc main_v3) by unfold UW; eval_line).trans (uA_v3 m c)
theorem uW_arg3 (c : Dev nD) : UW m c (Proc.devRef .tc main_arg3) = m ((c : Thread nD τ).loc main_arg3) :=
  (show UW m c (Proc.devRef .tc main_arg3) = UA m c (Proc.devRef .tc main_arg3) by unfold UW; eval_line).trans (uA_arg3 m c)
theorem uW_arg4 (c : Dev nD) : UW m c (Proc.devRef .tc main_arg4) = m ((c : Thread nD τ).loc main_arg4) :=
  (show UW m c (Proc.devRef .tc main_arg4) = UA m c (Proc.devRef .tc main_arg4) by unfold UW; eval_line).trans (uA_arg4 m c)
theorem uW_arg5 (c : Dev nD) : UW m c (Proc.devRef .tc main_arg5) = m ((c : Thread nD τ).loc main_arg5) :=
  (show UW m c (Proc.devRef .tc main_arg5) = UA m c (Proc.devRef .tc main_arg5) by unfold UW; eval_line).trans (uA_arg5 m c)

/-! ## Piece B: the edge weights -/

theorem uB_v30 (c : Dev nD) : UB m c (Proc.devRef .tc main_v30) = normV (ed m c) := by
  unfold UB; eval_line
  rw [uW_v6, uW_v7, uW_v15]
  rfl
theorem uB_v6 (c : Dev nD) : UB m c (Proc.devRef .tc main_v6) = srcV (ed m c) :=
  (show UB m c (Proc.devRef .tc main_v6) = UW m c (Proc.devRef .tc main_v6) by unfold UB; eval_line).trans (uW_v6 m c)
theorem uB_v7 (c : Dev nD) : UB m c (Proc.devRef .tc main_v7) = dstV (ed m c) :=
  (show UB m c (Proc.devRef .tc main_v7) = UW m c (Proc.devRef .tc main_v7) by unfold UB; eval_line).trans (uW_v7 m c)
theorem uB_v4 (c : Dev nD) : UB m c (Proc.devRef .tc main_v4) = prod (m ((c : Thread nD τ).loc main_arg0)) (m ((c : Thread nD τ).loc main_arg2)) :=
  (show UB m c (Proc.devRef .tc main_v4) = UW m c (Proc.devRef .tc main_v4) by unfold UB; eval_line).trans (uW_v4 m c)
theorem uB_v1 (c : Dev nD) : UB m c (Proc.devRef .tc main_v1) = shapeCast S1600000 (extractStridedSlice S1x1600000 ![0, 0] (ed m c) slices_S2x1600000_S1x1600000_0_0) shapeCasts_S1x1600000_S1600000 :=
  (show UB m c (Proc.devRef .tc main_v1) = UW m c (Proc.devRef .tc main_v1) by unfold UB; eval_line).trans (uW_v1 m c)
theorem uB_v3 (c : Dev nD) : UB m c (Proc.devRef .tc main_v3) = shapeCast S1600000 (extractStridedSlice S1x1600000 ![1, 0] (ed m c) slices_S2x1600000_S1x1600000_1_0) shapeCasts_S1x1600000_S1600000 :=
  (show UB m c (Proc.devRef .tc main_v3) = UW m c (Proc.devRef .tc main_v3) by unfold UB; eval_line).trans (uW_v3 m c)
theorem uB_arg3 (c : Dev nD) : UB m c (Proc.devRef .tc main_arg3) = m ((c : Thread nD τ).loc main_arg3) :=
  (show UB m c (Proc.devRef .tc main_arg3) = UW m c (Proc.devRef .tc main_arg3) by unfold UB; eval_line).trans (uW_arg3 m c)
theorem uB_arg4 (c : Dev nD) : UB m c (Proc.devRef .tc main_arg4) = m ((c : Thread nD τ).loc main_arg4) :=
  (show UB m c (Proc.devRef .tc main_arg4) = UW m c (Proc.devRef .tc main_arg4) by unfold UB; eval_line).trans (uW_arg4 m c)
theorem uB_arg5 (c : Dev nD) : UB m c (Proc.devRef .tc main_arg5) = m ((c : Thread nD τ).loc main_arg5) :=
  (show UB m c (Proc.devRef .tc main_arg5) = UW m c (Proc.devRef .tc main_arg5) by unfold UB; eval_line).trans (uW_arg5 m c)

/-! ## Piece C: the first layer's gathered rows, scaled -/

theorem uC_v40 (c : Dev nD) : UC m c (Proc.devRef .tc main_v40) = scaleRows (gatherRows (ed m c) (prod (m ((c : Thread nD τ).loc main_arg0)) (m ((c : Thread nD τ).loc main_arg2)))) (normCol (ed m c)) := by
  unfold UC; eval_line
  rw [uB_v4, uB_v6, uB_v30]
  exact (scaleRows_eq_host _ _ _ _ _).symm
theorem uC_v7 (c : Dev nD) : UC m c (Proc.devRef .tc main_v7) = dstV (ed m c) :=
  (show UC m c (Proc.devRef .tc main_v7) = UB m c (Proc.devRef .tc main_v7) by unfold UC; eval_line).trans (uB_v7 m c)
theorem uC_v1 (c : Dev nD) : UC m c (Proc.devRef .tc main_v1) = shapeCast S1600000 (extractStridedSlice S1x1600000 ![0, 0] (ed m c) slices_S2x1600000_S1x1600000_0_0) shapeCasts_S1x1600000_S1600000 :=
  (show UC m c (Proc.devRef .tc main_v1) = UB m c (Proc.devRef .tc main_v1) by unfold UC; eval_line).trans (uB_v1 m c)
theorem uC_v3 (c : Dev nD) : UC m c (Proc.devRef .tc main_v3) = shapeCast S1600000 (extractStridedSlice S1x1600000 ![1, 0] (ed m c) slices_S2x1600000_S1x1600000_1_0) shapeCasts_S1x1600000_S1600000 :=
  (show UC m c (Proc.devRef .tc main_v3) = UB m c (Proc.devRef .tc main_v3) by unfold UC; eval_line).trans (uB_v3 m c)
theorem uC_arg3 (c : Dev nD) : UC m c (Proc.devRef .tc main_arg3) = m ((c : Thread nD τ).loc main_arg3) :=
  (show UC m c (Proc.devRef .tc main_arg3) = UB m c (Proc.devRef .tc main_arg3) by unfold UC; eval_line).trans (uB_arg3 m c)
theorem uC_arg4 (c : Dev nD) : UC m c (Proc.devRef .tc main_arg4) = m ((c : Thread nD τ).loc main_arg4) :=
  (show UC m c (Proc.devRef .tc main_arg4) = UB m c (Proc.devRef .tc main_arg4) by unfold UC; eval_line).trans (uB_arg4 m c)
theorem uC_arg5 (c : Dev nD) : UC m c (Proc.devRef .tc main_arg5) = m ((c : Thread nD τ).loc main_arg5) :=
  (show UC m c (Proc.devRef .tc main_arg5) = UB m c (Proc.devRef .tc main_arg5) by unfold UC; eval_line).trans (uB_arg5 m c)

/-! ## Piece D: the first layer's aggregation and bias -/

theorem uD_v46 (c : Dev nD) : UD m c (Proc.devRef .tc main_v46) = addRow (layer (ed m c) (prod (m ((c : Thread nD τ).loc main_arg0)) (m ((c : Thread nD τ).loc main_arg2)))) (biasRow (m ((c : Thread nD τ).loc main_arg3))) := by
  unfold UD; eval_line
  rw [uC_v40, uC_v7, uC_arg3]
  exact (addRow_eq_host _ _ _ _ _).symm
theorem uD_v1 (c : Dev nD) : UD m c (Proc.devRef .tc main_v1) = shapeCast S1600000 (extractStridedSlice S1x1600000 ![0, 0] (ed m c) slices_S2x1600000_S1x1600000_0_0) shapeCasts_S1x1600000_S1600000 :=
  (show UD m c (Proc.devRef .tc main_v1) = UC m c (Proc.devRef .tc main_v1) by unfold UD; eval_line).trans (uC_v1 m c)
theorem uD_v3 (c : Dev nD) : UD m c (Proc.devRef .tc main_v3) = shapeCast S1600000 (extractStridedSlice S1x1600000 ![1, 0] (ed m c) slices_S2x1600000_S1x1600000_1_0) shapeCasts_S1x1600000_S1600000 :=
  (show UD m c (Proc.devRef .tc main_v3) = UC m c (Proc.devRef .tc main_v3) by unfold UD; eval_line).trans (uC_v3 m c)
theorem uD_arg4 (c : Dev nD) : UD m c (Proc.devRef .tc main_arg4) = m ((c : Thread nD τ).loc main_arg4) :=
  (show UD m c (Proc.devRef .tc main_arg4) = UC m c (Proc.devRef .tc main_arg4) by unfold UD; eval_line).trans (uC_arg4 m c)
theorem uD_arg5 (c : Dev nD) : UD m c (Proc.devRef .tc main_arg5) = m ((c : Thread nD τ).loc main_arg5) :=
  (show UD m c (Proc.devRef .tc main_arg5) = UC m c (Proc.devRef .tc main_arg5) by unfold UD; eval_line).trans (uC_arg5 m c)

/-! ## Piece R: the clamp at zero (the inlined `relu`): the first layer's output -/

theorem uR_v47 (c : Dev nD) : UR m c (Proc.devRef .tc main_v47) = (hidden (m ((c : Thread nD τ).loc main_arg0)) (ed m c) (m ((c : Thread nD τ).loc main_arg2)) (m ((c : Thread nD τ).loc main_arg3))) := by
  unfold UR; eval_line
  simp only [toBuf_cst_2, ofBuf_cst_2, toBuf_call0_v0, ofBuf_call0_v0, toBuf_call0_v1, ofBuf_call0_v1, toBuf_v13, ofBuf_v13, toBuf_v14, ofBuf_v14, toBuf_v15, ofBuf_v15, toBuf_call1_cst, ofBuf_call1_cst, toBuf_call1_v0, ofBuf_call1_v0, toBuf_v46, ofBuf_v46, toBuf_v47, ofBuf_v47]
  rw [uD_v46]
  exact addRowClamp_eq_max _ _ _
theorem uR_v1 (c : Dev nD) : UR m c (Proc.devRef .tc main_v1) = shapeCast S1600000 (extractStridedSlice S1x1600000 ![0, 0] (ed m c) slices_S2x1600000_S1x1600000_0_0) shapeCasts_S1x1600000_S1600000 :=
  (show UR m c (Proc.devRef .tc main_v1) = UD m c (Proc.devRef .tc main_v1) by unfold UR; eval_line).trans (uD_v1 m c)
theorem uR_v3 (c : Dev nD) : UR m c (Proc.devRef .tc main_v3) = shapeCast S1600000 (extractStridedSlice S1x1600000 ![1, 0] (ed m c) slices_S2x1600000_S1x1600000_1_0) shapeCasts_S1x1600000_S1600000 :=
  (show UR m c (Proc.devRef .tc main_v3) = UD m c (Proc.devRef .tc main_v3) by unfold UR; eval_line).trans (uD_v3 m c)
theorem uR_arg4 (c : Dev nD) : UR m c (Proc.devRef .tc main_arg4) = m ((c : Thread nD τ).loc main_arg4) :=
  (show UR m c (Proc.devRef .tc main_arg4) = UD m c (Proc.devRef .tc main_arg4) by unfold UR; eval_line).trans (uD_arg4 m c)
theorem uR_arg5 (c : Dev nD) : UR m c (Proc.devRef .tc main_arg5) = m ((c : Thread nD τ).loc main_arg5) :=
  (show UR m c (Proc.devRef .tc main_arg5) = UD m c (Proc.devRef .tc main_arg5) by unfold UR; eval_line).trans (uD_arg5 m c)

end Cert.ReferenceIdeal.Walk

end
-- ==== Proof.RefValueB.lean ====
/-
  The reference program's result, second half: the second layer.

  The reference recomputes the sources, the targets, the degrees and the edge weights from the same edge list: the same
  terms as in the first layer. The second projection, gather, scaling, aggregation and bias then give, in the result
  buffer, `Val.out` of the six arguments.
-/
import proofs.«128336_j1279900254338_2_alg».proof.Proof.RefRunP
import proofs.«128336_j1279900254338_2_alg».proof.Proof.Terms
import proofs.«128336_j1279900254338_2_alg».proof.Proof.LibCat
import proofs.«128336_j1279900254338_2_alg».proof.Proof.RefValueA

set_option maxRecDepth 16384

noncomputable section

open Idealize.ShloMosaic Idealize.ShloMosaic.TcCoe Idealize.SL.Sem Idealize.ShloMosaic.StableHlo Idealize.ShloMosaic.ValueIdx

namespace Cert.ReferenceIdeal.Walk

open Cert.ReferenceIdeal Cert.ReferenceIdeal.Gen Cert.ReferenceIdeal.RunP Cert.Gcn Cert.MatProd
open Cert.KernelIdeal.Val (Edges srcV dstV wrapIdx degV dinvV normV normCol gatherRows aggregate biasRow layer hidden out)

variable (m : (ℓ : Loc nD τ sig) → Buf (Elt Ideal) ℓ)

/-! ## A called function's values at literal buffers: the transport along the buffer's type is the identity -/

theorem toBuf_cst_12 {Val : EltTy → Type} (h1 : main_cst_12.ty = ⟨S_, .f32⟩) (h2) (h3) (v : (⟨S_, .f32⟩ : BufTy).Contents Val) :
    (TRef.of (sig := sig) (T := ⟨S_, .f32⟩) main_cst_12 h1 h2 h3).toBuf v = v := rfl
theorem ofBuf_cst_12 {Val : EltTy → Type} (h1 : main_cst_12.ty = ⟨S_, .f32⟩) (h2) (h3) (v : main_cst_12.ty.Contents Val) :
    (TRef.of (sig := sig) (T := ⟨S_, .f32⟩) main_cst_12 h1 h2 h3).ofBuf v = v := rfl
theorem toBuf_call2_v0 {Val : EltTy → Type} (h1 : main_call2_v0.ty = ⟨S_, .f32⟩) (h2) (h3) (v : (⟨S_, .f32⟩ : BufTy).Contents Val) :
    (TRef.of (sig := sig) (T := ⟨S_, .f32⟩) main_call2_v0 h1 h2 h3).toBuf v = v := rfl
theorem ofBuf_call2_v0 {Val : EltTy → Type} (h1 : main_call2_v0.ty = ⟨S_, .f32⟩) (h2) (h3) (v : main_call2_v0.ty.Contents Val) :
    (TRef.of (sig := sig) (T := ⟨S_, .f32⟩) main_call2_v0 h1 h2 h3).ofBuf v = v := rfl
theorem toBuf_call2_v1 {Val : EltTy → Type} (h1 : main_call2_v1.ty = ⟨S100000, .f32⟩) (h2) (h3) (v : (⟨S100000, .f32⟩ : BufTy).Contents Val) :
    (TRef.of (sig := sig) (T := ⟨S100000, .f32⟩) main_call2_v1 h1 h2 h3).toBuf v = v := rfl
theorem ofBuf_call2_v1 {Val : EltTy → Type} (h1 : main_call2_v1.ty = ⟨S100000, .f32⟩) (h2) (h3) (v : main_call2_v1.ty.Contents Val) :
    (TRef.of (sig := sig) (T := ⟨S100000, .f32⟩) main_call2_v1 h1 h2 h3).ofBuf v = v := rfl
theorem toBuf_v57 {Val : EltTy → Type} (h1 : main_v57.ty = ⟨S100000, .i1⟩) (h2) (h3) (v : (⟨S100000, .i1⟩ : BufTy).Contents Val) :
    (TRef.of (sig := sig) (T := ⟨S100000, .i1⟩) main_v57 h1 h2 h3).toBuf v = v := rfl
theorem ofBuf_v57 {Val : EltTy → Type} (h1 : main_v57.ty = ⟨S100000, .i1⟩) (h2) (h3) (v : main_v57.ty.Contents Val) :
    (TRef.of (sig := sig) (T := ⟨S100000, .i1⟩) main_v57 h1 h2 h3).ofBuf v = v := rfl
theorem toBuf_v58 {Val : EltTy → Type} (h1 : main_v58.ty = ⟨S100000, .f32⟩) (h2) (h3) (v : (⟨S100000, .f32⟩ : BufTy).Contents Val) :
    (TRef.of (sig := sig) (T := ⟨S100000, .f32⟩) main_v58 h1 h2 h3).toBuf v = v := rfl
theorem ofBuf_v58 {Val : EltTy → Type} (h1 : main_v58.ty = ⟨S100000, .f32⟩) (h2) (h3) (v : main_v58.ty.Contents Val) :
    (TRef.of (sig := sig) (T := ⟨S100000, .f32⟩) main_v58 h1 h2 h3).ofBuf v = v := rfl
theorem toBuf_v59 {Val : EltTy → Type} (h1 : main_v59.ty = ⟨S100000, .f32⟩) (h2) (h3) (v : (⟨S100000, .f32⟩ : BufTy).Contents Val) :
    (TRef.of (sig := sig) (T := ⟨S100000, .f32⟩) main_v59 h1 h2 h3).toBuf v = v := rfl
theorem ofBuf_v59 {Val : EltTy → Type} (h1 : main_v59.ty = ⟨S100000, .f32⟩) (h2) (h3) (v : main_v59.ty.Contents Val) :
    (TRef.of (sig := sig) (T := ⟨S100000, .f32⟩) main_v59 h1 h2 h3).ofBuf v = v := rfl

/-! ## Piece P: the second projection; the sources, the targets and the degrees again -/

theorem uP_v48 (c : Dev nD) : UP m c (Proc.devRef .tc main_v48) = prod (hidden (m ((c : Thread nD τ).loc main_arg0)) (ed m c) (m ((c : Thread nD τ).loc main_arg2)) (m ((c : Thread nD τ).loc main_arg3))) (m ((c : Thread nD τ).loc main_arg4)) := by
  unfold UP; eval_line
  rw [uR_v47, uR_arg4]
  exact dotGeneral_plain_eq none _ _ _
theorem uP_v50 (c : Dev nD) : UP m c (Proc.devRef .tc main_v50) = srcV (ed m c) := by
  unfold UP; eval_line
  rw [uR_v1]
  rfl
theorem uP_v51 (c : Dev nD) : UP m c (Proc.devRef .tc main_v51) = dstV (ed m c) := by
  unfold UP; eval_line
  rw [uR_v3]
  rfl
theorem uP_v57 (c : Dev nD) : UP m c (Proc.devRef .tc main_v57)
    = cmpf (F := Ideal) .ogt (degV (ed m c)) (broadcastInDim S100000 ![] bcast_S_S100000 (constant (F := Ideal) S_ .f32 0x00000000#32)) := by
  unfold UP; eval_line
  rw [uR_v3]
  rfl
theorem uP_v58 (c : Dev nD) : UP m c (Proc.devRef .tc main_v58) = Host.rsqrt (F := Ideal) (degV (ed m c)) := by
  unfold UP; eval_line
  rw [uR_v3]
  rfl
theorem uP_cst_12 (c : Dev nD) : UP m c (Proc.devRef .tc main_cst_12) = constant (F := Ideal) S_ .f32 0x00000000#32 := by
  unfold UP; eval_line
theorem uP_arg5 (c : Dev nD) : UP m c (Proc.devRef .tc main_arg5) = m ((c : Thread nD τ).loc main_arg5) :=
  (show UP m c (Proc.devRef .tc main_arg5) = UR m c (Proc.devRef .tc main_arg5) by unfold UP; eval_line).trans (uR_arg5 m c)

/-! ## Piece X: the inverse square roots of the degrees again (the inlined `where`) -/

theorem uX_v59 (c : Dev nD) : UX m c (Proc.devRef .tc main_v59) = dinvV (ed m c) := by
  unfold UX; eval_line
  simp only [toBuf_cst_12, ofBuf_cst_12, toBuf_call2_v0, ofBuf_call2_v0, toBuf_call2_v1, ofBuf_call2_v1, toBuf_v57, ofBuf_v57, toBuf_v58, ofBuf_v58, toBuf_v59, ofBuf_v59]
  rw [uP_v57, uP_v58, uP_cst_12]
  rfl
theorem uX_v48 (c : Dev nD) : UX m c (Proc.devRef .tc main_v48) = prod (hidden (m ((c : Thread nD τ).loc main_arg0)) (ed m c) (m ((c : Thread nD τ).loc main_arg2)) (m ((c : Thread nD τ).loc main_arg3))) (m ((c : Thread nD τ).loc main_arg4)) :=
  (show UX m c (Proc.devRef .tc main_v48) = UP m c (Proc.devRef .tc main_v48) by unfold UX; eval_line).trans (uP_v48 m c)
theorem uX_v50 (c : Dev nD) : UX m c (Proc.devRef .tc main_v50) = srcV (ed m c) :=
  (show UX m c (Proc.devRef .tc main_v50) = UP m c (Proc.devRef .tc main_v50) by unfold UX; eval_line).trans (uP_v50 m c)
theorem uX_v51 (c : Dev nD) : UX m c (Proc.devRef .tc main_v51) = dstV (ed m c) :=
  (show UX m c (Proc.devRef .tc main_v51) = UP m c (Proc.devRef .tc main_v51) by unfold UX; eval_line).trans (uP_v51 m c)
theorem uX_arg5 (c : Dev nD) : UX m c (Proc.devRef .tc main_arg5) = m ((c : Thread nD τ).loc main_arg5) :=
  (show UX m c (Proc.devRef .tc main_arg5) = UP m c (Proc.devRef .tc main_arg5) by unfold UX; eval_line).trans (uP_arg5 m c)

/-! ## Piece F: the edge weights again -/

theorem uF_v74 (c : Dev nD) : UF m c (Proc.devRef .tc main_v74) = normV (ed m c) := by
  unfold UF; eval_line
  rw [uX_v50, uX_v51, uX_v59]
  rfl
theorem uF_v48 (c : Dev nD) : UF m c (Proc.devRef .tc main_v48) = prod (hidden (m ((c : Thread nD τ).loc main_arg0)) (ed m c) (m ((c : Thread nD τ).loc main_arg2)) (m ((c : Thread nD τ).loc main_arg3))) (m ((c : Thread nD τ).loc main_arg4)) :=
  (show UF m c (Proc.devRef .tc main_v48) = UX m c (Proc.devRef .tc main_v48) by unfold UF; eval_line).trans (uX_v48 m c)
theorem uF_v50 (c : Dev nD) : UF m c (Proc.devRef .tc main_v50) = srcV (ed m c) :=
  (show UF m c (Proc.devRef .tc main_v50) = UX m c (Proc.devRef .tc main_v50) by unfold UF; eval_line).trans (uX_v50 m c)
theorem uF_v51 (c : Dev nD) : UF m c (Proc.devRef .tc main_v51) = dstV (ed m c) :=
  (show UF m c (Proc.devRef .tc main_v51) = UX m c (Proc.devRef .tc main_v51) by unfold UF; eval_line).trans (uX_v51 m c)
theorem uF_arg5 (c : Dev nD) : UF m c (Proc.devRef .tc main_arg5) = m ((c : Thread nD τ).loc main_arg5) :=
  (show UF m c (Proc.devRef .tc main_arg5) = UX m c (Proc.devRef .tc main_arg5) by unfold UF; eval_line).trans (uX_arg5 m c)

/-! ## Piece G: the second layer's gathered rows, scaled -/

theorem uG_v84 (c : Dev nD) : UG m c (Proc.devRef .tc main_v84)
    = scaleRows (gatherRows (ed m c) (prod (hidden (m ((c : Thread nD τ).loc main_arg0)) (ed m c) (m ((c : Thread nD τ).loc main_arg2)) (m ((c : Thread nD τ).loc main_arg3))) (m ((c : Thread nD τ).loc main_arg4)))) (normCol (ed m c)) := by
  unfold UG; eval_line
  rw [uF_v48, uF_v50, uF_v74]
  exact (scaleRows_eq_host _ _ _ _ _).symm
theorem uG_v51 (c : Dev nD) : UG m c (Proc.devRef .tc main_v51) = dstV (ed m c) :=
  (show UG m c (Proc.devRef .tc main_v51) = UF m c (Proc.devRef .tc main_v51) by unfold UG; eval_line).trans (uF_v51 m c)
theorem uG_arg5 (c : Dev nD) : UG m c (Proc.devRef .tc main_arg5) = m ((c : Thread nD τ).loc main_arg5) :=
  (show UG m c (Proc.devRef .tc main_arg5) = UF m c (Proc.devRef .tc main_arg5) by unfold UG; eval_line).trans (uF_arg5 m c)

/-! ## Piece H: the second layer's aggregation and bias -/

theorem uH_v90 (c : Dev nD) : UH m c (Proc.devRef .tc main_v90) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold UH; eval_line
  rw [uG_v84, uG_v51, uG_arg5]
  exact (addRow_eq_host _ _ _ _ _).symm

/-- THE RESULT: the reference's result buffer holds the network's output of the six arguments. -/
theorem result (c : Dev nD) : after ops (launchContents m c) (Proc.devRef .tc main_v90) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [after_ops]
  exact uH_v90 m c

end Cert.ReferenceIdeal.Walk

end
-- ==== Proof.RefKept.lean ====
/-
  The reference's arguments end as launched: none of its 119 operations writes an argument buffer, piece by piece.
-/
import proofs.«128336_j1279900254338_2_alg».proof.Proof.RefRunP
import proofs.«128336_j1279900254338_2_alg».proof.Proof.Terms
import proofs.«128336_j1279900254338_2_alg».proof.Proof.LibCat
import proofs.«128336_j1279900254338_2_alg».proof.Proof.RefValueA

set_option maxRecDepth 16384

noncomputable section

open Idealize.ShloMosaic Idealize.ShloMosaic.TcCoe Idealize.SL.Sem Idealize.ShloMosaic.StableHlo Idealize.ShloMosaic.ValueIdx

namespace Cert.ReferenceIdeal.Walk

open Cert.ReferenceIdeal Cert.ReferenceIdeal.Gen Cert.ReferenceIdeal.RunP Cert.Gcn Cert.MatProd
open Cert.KernelIdeal.Val (Edges srcV dstV wrapIdx degV dinvV normV normCol gatherRows aggregate biasRow layer hidden out)

variable (m : (ℓ : Loc nD τ sig) → Buf (Elt Ideal) ℓ)

theorem kA_arg0 (c : Dev nD) : UA m c (Proc.devRef .tc main_arg0) = m ((c : Thread nD τ).loc main_arg0) := by
  unfold UA; eval_line
theorem kW_arg0 (c : Dev nD) : UW m c (Proc.devRef .tc main_arg0) = m ((c : Thread nD τ).loc main_arg0) :=
  (show UW m c (Proc.devRef .tc main_arg0) = UA m c (Proc.devRef .tc main_arg0) by unfold UW; eval_line).trans (kA_arg0 m c)
theorem kB_arg0 (c : Dev nD) : UB m c (Proc.devRef .tc main_arg0) = m ((c : Thread nD τ).loc main_arg0) :=
  (show UB m c (Proc.devRef .tc main_arg0) = UW m c (Proc.devRef .tc main_arg0) by unfold UB; eval_line).trans (kW_arg0 m c)
theorem kC_arg0 (c : Dev nD) : UC m c (Proc.devRef .tc main_arg0) = m ((c : Thread nD τ).loc main_arg0) :=
  (show UC m c (Proc.devRef .tc main_arg0) = UB m c (Proc.devRef .tc main_arg0) by unfold UC; eval_line).trans (kB_arg0 m c)
theorem kD_arg0 (c : Dev nD) : UD m c (Proc.devRef .tc main_arg0) = m ((c : Thread nD τ).loc main_arg0) :=
  (show UD m c (Proc.devRef .tc main_arg0) = UC m c (Proc.devRef .tc main_arg0) by unfold UD; eval_line).trans (kC_arg0 m c)
theorem kR_arg0 (c : Dev nD) : UR m c (Proc.devRef .tc main_arg0) = m ((c : Thread nD τ).loc main_arg0) :=
  (show UR m c (Proc.devRef .tc main_arg0) = UD m c (Proc.devRef .tc main_arg0) by unfold UR; eval_line).trans (kD_arg0 m c)
theorem kP_arg0 (c : Dev nD) : UP m c (Proc.devRef .tc main_arg0) = m ((c : Thread nD τ).loc main_arg0) :=
  (show UP m c (Proc.devRef .tc main_arg0) = UR m c (Proc.devRef .tc main_arg0) by unfold UP; eval_line).trans (kR_arg0 m c)
theorem kX_arg0 (c : Dev nD) : UX m c (Proc.devRef .tc main_arg0) = m ((c : Thread nD τ).loc main_arg0) :=
  (show UX m c (Proc.devRef .tc main_arg0) = UP m c (Proc.devRef .tc main_arg0) by unfold UX; eval_line).trans (kP_arg0 m c)
theorem kF_arg0 (c : Dev nD) : UF m c (Proc.devRef .tc main_arg0) = m ((c : Thread nD τ).loc main_arg0) :=
  (show UF m c (Proc.devRef .tc main_arg0) = UX m c (Proc.devRef .tc main_arg0) by unfold UF; eval_line).trans (kX_arg0 m c)
theorem kG_arg0 (c : Dev nD) : UG m c (Proc.devRef .tc main_arg0) = m ((c : Thread nD τ).loc main_arg0) :=
  (show UG m c (Proc.devRef .tc main_arg0) = UF m c (Proc.devRef .tc main_arg0) by unfold UG; eval_line).trans (kF_arg0 m c)
theorem kH_arg0 (c : Dev nD) : UH m c (Proc.devRef .tc main_arg0) = m ((c : Thread nD τ).loc main_arg0) :=
  (show UH m c (Proc.devRef .tc main_arg0) = UG m c (Proc.devRef .tc main_arg0) by unfold UH; eval_line).trans (kG_arg0 m c)
theorem kA_arg1 (c : Dev nD) : UA m c (Proc.devRef .tc main_arg1) = m ((c : Thread nD τ).loc main_arg1) := by
  unfold UA; eval_line
theorem kW_arg1 (c : Dev nD) : UW m c (Proc.devRef .tc main_arg1) = m ((c : Thread nD τ).loc main_arg1) :=
  (show UW m c (Proc.devRef .tc main_arg1) = UA m c (Proc.devRef .tc main_arg1) by unfold UW; eval_line).trans (kA_arg1 m c)
theorem kB_arg1 (c : Dev nD) : UB m c (Proc.devRef .tc main_arg1) = m ((c : Thread nD τ).loc main_arg1) :=
  (show UB m c (Proc.devRef .tc main_arg1) = UW m c (Proc.devRef .tc main_arg1) by unfold UB; eval_line).trans (kW_arg1 m c)
theorem kC_arg1 (c : Dev nD) : UC m c (Proc.devRef .tc main_arg1) = m ((c : Thread nD τ).loc main_arg1) :=
  (show UC m c (Proc.devRef .tc main_arg1) = UB m c (Proc.devRef .tc main_arg1) by unfold UC; eval_line).trans (kB_arg1 m c)
theorem kD_arg1 (c : Dev nD) : UD m c (Proc.devRef .tc main_arg1) = m ((c : Thread nD τ).loc main_arg1) :=
  (show UD m c (Proc.devRef .tc main_arg1) = UC m c (Proc.devRef .tc main_arg1) by unfold UD; eval_line).trans (kC_arg1 m c)
theorem kR_arg1 (c : Dev nD) : UR m c (Proc.devRef .tc main_arg1) = m ((c : Thread nD τ).loc main_arg1) :=
  (show UR m c (Proc.devRef .tc main_arg1) = UD m c (Proc.devRef .tc main_arg1) by unfold UR; eval_line).trans (kD_arg1 m c)
theorem kP_arg1 (c : Dev nD) : UP m c (Proc.devRef .tc main_arg1) = m ((c : Thread nD τ).loc main_arg1) :=
  (show UP m c (Proc.devRef .tc main_arg1) = UR m c (Proc.devRef .tc main_arg1) by unfold UP; eval_line).trans (kR_arg1 m c)
theorem kX_arg1 (c : Dev nD) : UX m c (Proc.devRef .tc main_arg1) = m ((c : Thread nD τ).loc main_arg1) :=
  (show UX m c (Proc.devRef .tc main_arg1) = UP m c (Proc.devRef .tc main_arg1) by unfold UX; eval_line).trans (kP_arg1 m c)
theorem kF_arg1 (c : Dev nD) : UF m c (Proc.devRef .tc main_arg1) = m ((c : Thread nD τ).loc main_arg1) :=
  (show UF m c (Proc.devRef .tc main_arg1) = UX m c (Proc.devRef .tc main_arg1) by unfold UF; eval_line).trans (kX_arg1 m c)
theorem kG_arg1 (c : Dev nD) : UG m c (Proc.devRef .tc main_arg1) = m ((c : Thread nD τ).loc main_arg1) :=
  (show UG m c (Proc.devRef .tc main_arg1) = UF m c (Proc.devRef .tc main_arg1) by unfold UG; eval_line).trans (kF_arg1 m c)
theorem kH_arg1 (c : Dev nD) : UH m c (Proc.devRef .tc main_arg1) = m ((c : Thread nD τ).loc main_arg1) :=
  (show UH m c (Proc.devRef .tc main_arg1) = UG m c (Proc.devRef .tc main_arg1) by unfold UH; eval_line).trans (kG_arg1 m c)
theorem kA_arg2 (c : Dev nD) : UA m c (Proc.devRef .tc main_arg2) = m ((c : Thread nD τ).loc main_arg2) := by
  unfold UA; eval_line
theorem kW_arg2 (c : Dev nD) : UW m c (Proc.devRef .tc main_arg2) = m ((c : Thread nD τ).loc main_arg2) :=
  (show UW m c (Proc.devRef .tc main_arg2) = UA m c (Proc.devRef .tc main_arg2) by unfold UW; eval_line).trans (kA_arg2 m c)
theorem kB_arg2 (c : Dev nD) : UB m c (Proc.devRef .tc main_arg2) = m ((c : Thread nD τ).loc main_arg2) :=
  (show UB m c (Proc.devRef .tc main_arg2) = UW m c (Proc.devRef .tc main_arg2) by unfold UB; eval_line).trans (kW_arg2 m c)
theorem kC_arg2 (c : Dev nD) : UC m c (Proc.devRef .tc main_arg2) = m ((c : Thread nD τ).loc main_arg2) :=
  (show UC m c (Proc.devRef .tc main_arg2) = UB m c (Proc.devRef .tc main_arg2) by unfold UC; eval_line).trans (kB_arg2 m c)
theorem kD_arg2 (c : Dev nD) : UD m c (Proc.devRef .tc main_arg2) = m ((c : Thread nD τ).loc main_arg2) :=
  (show UD m c (Proc.devRef .tc main_arg2) = UC m c (Proc.devRef .tc main_arg2) by unfold UD; eval_line).trans (kC_arg2 m c)
theorem kR_arg2 (c : Dev nD) : UR m c (Proc.devRef .tc main_arg2) = m ((c : Thread nD τ).loc main_arg2) :=
  (show UR m c (Proc.devRef .tc main_arg2) = UD m c (Proc.devRef .tc main_arg2) by unfold UR; eval_line).trans (kD_arg2 m c)
theorem kP_arg2 (c : Dev nD) : UP m c (Proc.devRef .tc main_arg2) = m ((c : Thread nD τ).loc main_arg2) :=
  (show UP m c (Proc.devRef .tc main_arg2) = UR m c (Proc.devRef .tc main_arg2) by unfold UP; eval_line).trans (kR_arg2 m c)
theorem kX_arg2 (c : Dev nD) : UX m c (Proc.devRef .tc main_arg2) = m ((c : Thread nD τ).loc main_arg2) :=
  (show UX m c (Proc.devRef .tc main_arg2) = UP m c (Proc.devRef .tc main_arg2) by unfold UX; eval_line).trans (kP_arg2 m c)
theorem kF_arg2 (c : Dev nD) : UF m c (Proc.devRef .tc main_arg2) = m ((c : Thread nD τ).loc main_arg2) :=
  (show UF m c (Proc.devRef .tc main_arg2) = UX m c (Proc.devRef .tc main_arg2) by unfold UF; eval_line).trans (kX_arg2 m c)
theorem kG_arg2 (c : Dev nD) : UG m c (Proc.devRef .tc main_arg2) = m ((c : Thread nD τ).loc main_arg2) :=
  (show UG m c (Proc.devRef .tc main_arg2) = UF m c (Proc.devRef .tc main_arg2) by unfold UG; eval_line).trans (kF_arg2 m c)
theorem kH_arg2 (c : Dev nD) : UH m c (Proc.devRef .tc main_arg2) = m ((c : Thread nD τ).loc main_arg2) :=
  (show UH m c (Proc.devRef .tc main_arg2) = UG m c (Proc.devRef .tc main_arg2) by unfold UH; eval_line).trans (kG_arg2 m c)
theorem kA_arg3 (c : Dev nD) : UA m c (Proc.devRef .tc main_arg3) = m ((c : Thread nD τ).loc main_arg3) := by
  unfold UA; eval_line
theorem kW_arg3 (c : Dev nD) : UW m c (Proc.devRef .tc main_arg3) = m ((c : Thread nD τ).loc main_arg3) :=
  (show UW m c (Proc.devRef .tc main_arg3) = UA m c (Proc.devRef .tc main_arg3) by unfold UW; eval_line).trans (kA_arg3 m c)
theorem kB_arg3 (c : Dev nD) : UB m c (Proc.devRef .tc main_arg3) = m ((c : Thread nD τ).loc main_arg3) :=
  (show UB m c (Proc.devRef .tc main_arg3) = UW m c (Proc.devRef .tc main_arg3) by unfold UB; eval_line).trans (kW_arg3 m c)
theorem kC_arg3 (c : Dev nD) : UC m c (Proc.devRef .tc main_arg3) = m ((c : Thread nD τ).loc main_arg3) :=
  (show UC m c (Proc.devRef .tc main_arg3) = UB m c (Proc.devRef .tc main_arg3) by unfold UC; eval_line).trans (kB_arg3 m c)
theorem kD_arg3 (c : Dev nD) : UD m c (Proc.devRef .tc main_arg3) = m ((c : Thread nD τ).loc main_arg3) :=
  (show UD m c (Proc.devRef .tc main_arg3) = UC m c (Proc.devRef .tc main_arg3) by unfold UD; eval_line).trans (kC_arg3 m c)
theorem kR_arg3 (c : Dev nD) : UR m c (Proc.devRef .tc main_arg3) = m ((c : Thread nD τ).loc main_arg3) :=
  (show UR m c (Proc.devRef .tc main_arg3) = UD m c (Proc.devRef .tc main_arg3) by unfold UR; eval_line).trans (kD_arg3 m c)
theorem kP_arg3 (c : Dev nD) : UP m c (Proc.devRef .tc main_arg3) = m ((c : Thread nD τ).loc main_arg3) :=
  (show UP m c (Proc.devRef .tc main_arg3) = UR m c (Proc.devRef .tc main_arg3) by unfold UP; eval_line).trans (kR_arg3 m c)
theorem kX_arg3 (c : Dev nD) : UX m c (Proc.devRef .tc main_arg3) = m ((c : Thread nD τ).loc main_arg3) :=
  (show UX m c (Proc.devRef .tc main_arg3) = UP m c (Proc.devRef .tc main_arg3) by unfold UX; eval_line).trans (kP_arg3 m c)
theorem kF_arg3 (c : Dev nD) : UF m c (Proc.devRef .tc main_arg3) = m ((c : Thread nD τ).loc main_arg3) :=
  (show UF m c (Proc.devRef .tc main_arg3) = UX m c (Proc.devRef .tc main_arg3) by unfold UF; eval_line).trans (kX_arg3 m c)
theorem kG_arg3 (c : Dev nD) : UG m c (Proc.devRef .tc main_arg3) = m ((c : Thread nD τ).loc main_arg3) :=
  (show UG m c (Proc.devRef .tc main_arg3) = UF m c (Proc.devRef .tc main_arg3) by unfold UG; eval_line).trans (kF_arg3 m c)
theorem kH_arg3 (c : Dev nD) : UH m c (Proc.devRef .tc main_arg3) = m ((c : Thread nD τ).loc main_arg3) :=
  (show UH m c (Proc.devRef .tc main_arg3) = UG m c (Proc.devRef .tc main_arg3) by unfold UH; eval_line).trans (kG_arg3 m c)
theorem kA_arg4 (c : Dev nD) : UA m c (Proc.devRef .tc main_arg4) = m ((c : Thread nD τ).loc main_arg4) := by
  unfold UA; eval_line
theorem kW_arg4 (c : Dev nD) : UW m c (Proc.devRef .tc main_arg4) = m ((c : Thread nD τ).loc main_arg4) :=
  (show UW m c (Proc.devRef .tc main_arg4) = UA m c (Proc.devRef .tc main_arg4) by unfold UW; eval_line).trans (kA_arg4 m c)
theorem kB_arg4 (c : Dev nD) : UB m c (Proc.devRef .tc main_arg4) = m ((c : Thread nD τ).loc main_arg4) :=
  (show UB m c (Proc.devRef .tc main_arg4) = UW m c (Proc.devRef .tc main_arg4) by unfold UB; eval_line).trans (kW_arg4 m c)
theorem kC_arg4 (c : Dev nD) : UC m c (Proc.devRef .tc main_arg4) = m ((c : Thread nD τ).loc main_arg4) :=
  (show UC m c (Proc.devRef .tc main_arg4) = UB m c (Proc.devRef .tc main_arg4) by unfold UC; eval_line).trans (kB_arg4 m c)
theorem kD_arg4 (c : Dev nD) : UD m c (Proc.devRef .tc main_arg4) = m ((c : Thread nD τ).loc main_arg4) :=
  (show UD m c (Proc.devRef .tc main_arg4) = UC m c (Proc.devRef .tc main_arg4) by unfold UD; eval_line).trans (kC_arg4 m c)
theorem kR_arg4 (c : Dev nD) : UR m c (Proc.devRef .tc main_arg4) = m ((c : Thread nD τ).loc main_arg4) :=
  (show UR m c (Proc.devRef .tc main_arg4) = UD m c (Proc.devRef .tc main_arg4) by unfold UR; eval_line).trans (kD_arg4 m c)
theorem kP_arg4 (c : Dev nD) : UP m c (Proc.devRef .tc main_arg4) = m ((c : Thread nD τ).loc main_arg4) :=
  (show UP m c (Proc.devRef .tc main_arg4) = UR m c (Proc.devRef .tc main_arg4) by unfold UP; eval_line).trans (kR_arg4 m c)
theorem kX_arg4 (c : Dev nD) : UX m c (Proc.devRef .tc main_arg4) = m ((c : Thread nD τ).loc main_arg4) :=
  (show UX m c (Proc.devRef .tc main_arg4) = UP m c (Proc.devRef .tc main_arg4) by unfold UX; eval_line).trans (kP_arg4 m c)
theorem kF_arg4 (c : Dev nD) : UF m c (Proc.devRef .tc main_arg4) = m ((c : Thread nD τ).loc main_arg4) :=
  (show UF m c (Proc.devRef .tc main_arg4) = UX m c (Proc.devRef .tc main_arg4) by unfold UF; eval_line).trans (kX_arg4 m c)
theorem kG_arg4 (c : Dev nD) : UG m c (Proc.devRef .tc main_arg4) = m ((c : Thread nD τ).loc main_arg4) :=
  (show UG m c (Proc.devRef .tc main_arg4) = UF m c (Proc.devRef .tc main_arg4) by unfold UG; eval_line).trans (kF_arg4 m c)
theorem kH_arg4 (c : Dev nD) : UH m c (Proc.devRef .tc main_arg4) = m ((c : Thread nD τ).loc main_arg4) :=
  (show UH m c (Proc.devRef .tc main_arg4) = UG m c (Proc.devRef .tc main_arg4) by unfold UH; eval_line).trans (kG_arg4 m c)
theorem kA_arg5 (c : Dev nD) : UA m c (Proc.devRef .tc main_arg5) = m ((c : Thread nD τ).loc main_arg5) := by
  unfold UA; eval_line
theorem kW_arg5 (c : Dev nD) : UW m c (Proc.devRef .tc main_arg5) = m ((c : Thread nD τ).loc main_arg5) :=
  (show UW m c (Proc.devRef .tc main_arg5) = UA m c (Proc.devRef .tc main_arg5) by unfold UW; eval_line).trans (kA_arg5 m c)
theorem kB_arg5 (c : Dev nD) : UB m c (Proc.devRef .tc main_arg5) = m ((c : Thread nD τ).loc main_arg5) :=
  (show UB m c (Proc.devRef .tc main_arg5) = UW m c (Proc.devRef .tc main_arg5) by unfold UB; eval_line).trans (kW_arg5 m c)
theorem kC_arg5 (c : Dev nD) : UC m c (Proc.devRef .tc main_arg5) = m ((c : Thread nD τ).loc main_arg5) :=
  (show UC m c (Proc.devRef .tc main_arg5) = UB m c (Proc.devRef .tc main_arg5) by unfold UC; eval_line).trans (kB_arg5 m c)
theorem kD_arg5 (c : Dev nD) : UD m c (Proc.devRef .tc main_arg5) = m ((c : Thread nD τ).loc main_arg5) :=
  (show UD m c (Proc.devRef .tc main_arg5) = UC m c (Proc.devRef .tc main_arg5) by unfold UD; eval_line).trans (kC_arg5 m c)
theorem kR_arg5 (c : Dev nD) : UR m c (Proc.devRef .tc main_arg5) = m ((c : Thread nD τ).loc main_arg5) :=
  (show UR m c (Proc.devRef .tc main_arg5) = UD m c (Proc.devRef .tc main_arg5) by unfold UR; eval_line).trans (kD_arg5 m c)
theorem kP_arg5 (c : Dev nD) : UP m c (Proc.devRef .tc main_arg5) = m ((c : Thread nD τ).loc main_arg5) :=
  (show UP m c (Proc.devRef .tc main_arg5) = UR m c (Proc.devRef .tc main_arg5) by unfold UP; eval_line).trans (kR_arg5 m c)
theorem kX_arg5 (c : Dev nD) : UX m c (Proc.devRef .tc main_arg5) = m ((c : Thread nD τ).loc main_arg5) :=
  (show UX m c (Proc.devRef .tc main_arg5) = UP m c (Proc.devRef .tc main_arg5) by unfold UX; eval_line).trans (kP_arg5 m c)
theorem kF_arg5 (c : Dev nD) : UF m c (Proc.devRef .tc main_arg5) = m ((c : Thread nD τ).loc main_arg5) :=
  (show UF m c (Proc.devRef .tc main_arg5) = UX m c (Proc.devRef .tc main_arg5) by unfold UF; eval_line).trans (kX_arg5 m c)
theorem kG_arg5 (c : Dev nD) : UG m c (Proc.devRef .tc main_arg5) = m ((c : Thread nD τ).loc main_arg5) :=
  (show UG m c (Proc.devRef .tc main_arg5) = UF m c (Proc.devRef .tc main_arg5) by unfold UG; eval_line).trans (kF_arg5 m c)
theorem kH_arg5 (c : Dev nD) : UH m c (Proc.devRef .tc main_arg5) = m ((c : Thread nD τ).loc main_arg5) :=
  (show UH m c (Proc.devRef .tc main_arg5) = UG m c (Proc.devRef .tc main_arg5) by unfold UH; eval_line).trans (kG_arg5 m c)

/-- No operation writes an argument: each ends as launched. -/
theorem kept (c : Dev nD) : after ops (launchContents m c) (Proc.devRef .tc main_arg0) = m ((c : Thread nD τ).loc main_arg0)
    ∧ after ops (launchContents m c) (Proc.devRef .tc main_arg1) = m ((c : Thread nD τ).loc main_arg1)
    ∧ after ops (launchContents m c) (Proc.devRef .tc main_arg2) = m ((c : Thread nD τ).loc main_arg2)
    ∧ after ops (launchContents m c) (Proc.devRef .tc main_arg3) = m ((c : Thread nD τ).loc main_arg3)
    ∧ after ops (launchContents m c) (Proc.devRef .tc main_arg4) = m ((c : Thread nD τ).loc main_arg4)
    ∧ after ops (launchContents m c) (Proc.devRef .tc main_arg5) = m ((c : Thread nD τ).loc main_arg5) := by
  rw [after_ops]
  exact ⟨kH_arg0 m c, kH_arg1 m c, kH_arg2 m c, kH_arg3 m c, kH_arg4 m c, kH_arg5 m c⟩

end Cert.ReferenceIdeal.Walk

end
-- ==== Proof.lean ====
/-
  The certificate of a two-layer graph convolution: six kernel calls among host gathers and scatter-adds, against
  the plain array program.

  Both programs compute, over the extended reals, the same function of the six arguments (`Val.out`): the kernel
  program's run leaves it in the result buffer (the stage modules for the six calls, `KernelValue` for the walk through
  the thirteen segments), and so does the reference's line of 119 host operations (`RefValueA`, `RefValueB`). The two
  sides differ only in how the dense stages are laid out — a product tiled by row blocks against one product, a weight
  column and a bias row broadcast inside a block against vectors laid out by the host — and each layout is read at an
  entry, so no law of arithmetic beyond that reading is used and the inputs' finiteness is never opened. The frames of
  the kernel programs are the generated ones; the reference's frame is its run with the result dropped; the ideal pass
  rewrote nothing, so `preserves` is trivial.
-/
import proofs.«128336_j1279900254338_2_alg».proof.Defs
import proofs.«128336_j1279900254338_2_alg».proof.Proof.Gen.Kernel
import proofs.«128336_j1279900254338_2_alg».proof.Proof.Gen.Kernel.Frame
import proofs.«128336_j1279900254338_2_alg».proof.Proof.Gen.KernelIdeal
import proofs.«128336_j1279900254338_2_alg».proof.Proof.Gen.KernelIdeal.Frame
import proofs.«128336_j1279900254338_2_alg».proof.Proof.Gen.ReferenceIdeal
import proofs.«128336_j1279900254338_2_alg».proof.Proof.Gen.Pre_finite_inputs
import proofs.«128336_j1279900254338_2_alg».proof.Proof.KernelRun
import proofs.«128336_j1279900254338_2_alg».proof.Proof.KernelValue
import proofs.«128336_j1279900254338_2_alg».proof.Proof.RefRunP
import proofs.«128336_j1279900254338_2_alg».proof.Proof.RefValueB
import proofs.«128336_j1279900254338_2_alg».proof.Proof.RefKept
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, read at the six argument buffers, none of which an operation writes. -/
theorem frame_reference : Cert.frame_ReferenceIdeal := fun m ρ _ =>
  (θ_run Cert.ReferenceIdeal.defs _ _).mono (fun _ h c => by
    obtain ⟨k0, k1, k2, k3, k4, k5⟩ := Cert.ReferenceIdeal.Walk.kept m c
    exact ⟨(h c _).trans k0, (h c _).trans k1, (h c _).trans k2, (h c _).trans k3, (h c _).trans k4, (h c _).trans k5⟩)
    (Cert.ReferenceIdeal.RunP.run_raw (F := Ideal) m ρ)

theorem preserves : Cert.preserves_Kernel_KernelIdeal := trivial

/-- Both programs end with the network's output of the (agreeing) arguments in their result buffers. -/
theorem algebraic : Cert.algebraic_KernelIdeal_ReferenceIdeal := by
  intro m ρ m' ρ' _ hagree
  refine ⟨fun c => Cert.KernelIdeal.Val.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Walk.result m ρ c), (h c).2⟩)
      (Cert.KernelIdeal.Run.run_named (F := Ideal) m ρ)
  · refine (θ_run Cert.ReferenceIdeal.defs _ _).mono (fun _ h c => ?_)
      (Cert.ReferenceIdeal.RunP.run_raw (F := Ideal) m' ρ')
    obtain ⟨k0, k1, k2, k3, k4, k5⟩ := Cert.ReferenceIdeal.Walk.kept m' c
    obtain ⟨a0, a1, a2, a3, a4, a5⟩ := hagree c
    refine ⟨((h c _).trans (Cert.ReferenceIdeal.Walk.result m' c)).trans ?_,
      (h c _).trans k0, (h c _).trans k1, (h c _).trans k2, (h c _).trans k3, (h c _).trans k4, (h c _).trans k5⟩
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
